-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x30 : Shape := ⟨2, ![50000, 30]⟩
abbrev S2x800000 : Shape := ⟨2, ![2, 800000]⟩
abbrev S30x128 : Shape := ⟨2, ![30, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x30 : S_.BroadcastsInDim S50000x30 (![] : Fin 0 → Fin S50000x30.rank)
  reducesTo_S50000x30_S_d0_1 : S50000x30.ReducesTo [0, 1] S_
  h_S_ : 0 < S_.numel
  bcast_S_S30x128 : S_.BroadcastsInDim S30x128 (![] : Fin 0 → Fin S30x128.rank)
  reducesTo_S30x128_S_d0_1 : S30x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S256x1 .f32) (main_arg10 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S256x1 .f32 := Host.absf main_arg9
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x256 .f32) (main_arg6 : FVec F S128x256 .f32) (main_arg7 : FVec F S256 .f32) (main_arg8 : FVec F S256x1 .f32) (main_arg9 : FVec F S256x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S50000x30 .f32) (main_arg1 : IVec S2x800000 32) (main_arg2 : FVec F S30x128 .f32) (main_arg3 : FVec F S30x128 .f32) (main_arg4 : FVec F S128 .f32) (main_arg5 : FVec F S128x256 .f32) (main_arg6 : FVec F S128x256 .f32) (main_arg7 : FVec F S256 .f32) (main_arg8 : FVec F S256x1 .f32) (main_arg9 : FVec F S256x1 .f32) (main_arg10 : FVec F S1 .f32) : IVec S_ 1 :=
  let main_v0 : FVec F S50000x30 .f32 := Host.absf main_arg0
  let main_cst : FVec F S_ .f32 := constant S_ .f32 0x7F800000#32
  let main_v1 : FVec F S50000x30 .f32 := broadcastInDim S50000x30 ![] bcast_S_S50000x30 main_cst
  let main_v2 : IVec S50000x30 1 := cmpf .olt main_v0 main_v1
  let main_c : IVec S_ 1 := constantI S_ 1 1#1
  let main_v3 : IVec S_ 1 := (fun x v => Host.reduce IntOp.andi x v reducesTo_S50000x30_S_d0_1 h_S_) main_v2 main_c
  let main_v4 : FVec F S30x128 .f32 := Host.absf main_arg2
  let main_cst_0 : FVec F S_ .f32 := constant S_ .f32 0x7F800000#32
  let main_v5 : FVec F S30x128 .f32 := broadcastInDim S30x128 ![] bcast_S_S30x128 main_cst_0
  let main_v6 : IVec S30x128 1 := cmpf .olt main_v4 main_v5
  let main_c_1 : IVec S_ 1 := constantI S_ 1 1#1
  let main_v7 : IVec S_ 1 := (fun x v => Host.reduce IntOp.andi x v reducesTo_S30x128_S_d0_1 h_S_) main_v6 main_c_1
  let main_v8 : IVec S_ 1 := andi main_v3 main_v7
  let main_v9 : FVec F S30x128 .f32 := Host.absf main_arg3
  let main_cst_2 : FVec F S_ .f32 := constant S_ .f32 0x7F800000#32
  let main_v10 : FVec F S30x128 .f32 := broadcastInDim S30x128 ![] bcast_S_S30x128 main_cst_2
  let main_v11 : IVec S30x128 1 := cmpf .olt main_v9 main_v10
  let main_c_3 : IVec S_ 1 := constantI S_ 1 1#1
  let main_v12 : IVec S_ 1 := (fun x v => Host.reduce IntOp.andi x v reducesTo_S30x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x30 : Shape := ⟨2, ![50000, 30]⟩
abbrev S2x800000 : Shape := ⟨2, ![2, 800000]⟩
abbrev S30x128 : Shape := ⟨2, ![30, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x30 : Shape := ⟨2, ![800000, 30]⟩
abbrev S50000x128 : Shape := ⟨2, ![50000, 128]⟩
abbrev S2000x30 : Shape := ⟨2, ![2000, 30]⟩
abbrev S2000x128 : Shape := ⟨2, ![2000, 128]⟩
abbrev S1x128 : Shape := ⟨2, ![1, 128]⟩
abbrev S800000x128 : Shape := ⟨2, ![800000, 128]⟩
abbrev S50000x256 : Shape := ⟨2, ![50000, 256]⟩
abbrev S2000x256 : Shape := ⟨2, ![2000, 256]⟩
abbrev S1x256 : Shape := ⟨2, ![1, 256]⟩
abbrev S800000x256 : Shape := ⟨2, ![800000, 256]⟩
abbrev S2000x1 : Shape := ⟨2, ![2000, 1]⟩
abbrev S1x1 : Shape := ⟨2, ![1, 1]⟩

abbrev nBuf : Space → Nat
  | .hbm => 76
  | .vmem => 27
  | .smem => 0
  | _ => 0

abbrev bufTy : (tb : Table) → Fin (tcTables nBuf tb) → BufTy
  | .hbm, ⟨0, _⟩ => ⟨S50000x30, .f32⟩
  | .hbm, ⟨1, _⟩ => ⟨S2x800000, .i32⟩
  | .hbm, ⟨2, _⟩ => ⟨S30x128, .f32⟩
  | .hbm, ⟨3, _⟩ => ⟨S30x128, .f32⟩
  | .hbm, ⟨4, _⟩ => ⟨S128, .f32⟩
  | .hbm, ⟨5, _⟩ => ⟨S128x256, .f32⟩
  | .hbm, ⟨6, _⟩ => ⟨S128x256, .f32⟩
  | .hbm, ⟨7, _⟩ => ⟨S256, .f32⟩
  | .hbm, ⟨8, _⟩ => ⟨S256x1, .f32⟩
  | .hbm, ⟨9, _⟩ => ⟨S256x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x30, .f32⟩
  | .hbm, ⟨37, _⟩ => ⟨S_, .f32⟩
  | .hbm, ⟨38, _⟩ => ⟨S50000x30, .f32⟩
  | .hbm, ⟨39, _⟩ => ⟨S800000x1, .i32⟩
  | .hbm, ⟨40, _⟩ => ⟨S50000x30, .f32⟩
  | .hbm, ⟨41, _⟩ => ⟨S50000x30, .f32⟩
  | .hbm, ⟨42, _⟩ => ⟨S50000x30, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x256, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x256, .f32⟩
  | .hbm, ⟨69, _⟩ => ⟨S_, .f32⟩
  | .hbm, ⟨70, _⟩ => ⟨S50000x256, .f32⟩
  | .hbm, ⟨71, _⟩ => ⟨S800000x1, .i32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S50000x1, .f32⟩
  | .local _ .vmem, ⟨0, _⟩ => ⟨S2000x30, .f32⟩
  | .local _ .vmem, ⟨1, _⟩ => ⟨S2000x30, .f32⟩
  | .local _ .vmem, ⟨2, _⟩ => ⟨S2000x30, .f32⟩
  | .local _ .vmem, ⟨3, _⟩ => ⟨S2000x30, .f32⟩
  | .local _ .vmem, ⟨4, _⟩ => ⟨S30x128, .f32⟩
  | .local _ .vmem, ⟨5, _⟩ => ⟨S30x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x256, .f32⟩
  | .local _ .vmem, ⟨14, _⟩ => ⟨S128x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x1, .f32⟩
  | .local _ .vmem, ⟨23, _⟩ => ⟨S256x1, .f32⟩
  | .local _ .vmem, ⟨24, _⟩ => ⟨S1, .f32⟩
  | .local _ .vmem, ⟨25, _⟩ => ⟨S2000x1, .f32⟩
  | .local _ .vmem, ⟨26, _⟩ => ⟨S2000x1, .f32⟩
  | _, _ => ⟨S50000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S30x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x30 : S_.BroadcastsInDim S50000x30 (![] : Fin 0 → Fin S50000x30.rank)
  bcast_S50000x1_S50000x30_0_1 : S50000x1.BroadcastsInDim S50000x30 (![0, 1] : Fin 2 → Fin S50000x30.rank)
  inb_S2000x30_S2000x30_0_0 : ∀ a, (![0, 0] : Fin 2 → Nat) a + S2000x30.size a ≤ S2000x30.size a
  h_S2000x30 : 0 < S2000x30.numel
  shapeCasts_S2000x30_S2000x30 : S2000x30.ShapeCasts S2000x30
  bitsLt_bf16_f32 : FTy.bits .bf16 < FTy.bits .f32
  inb_S30x128_S30x128_0_0 : ∀ a, (![0, 0] : Fin 2 → Nat) a + S30x128.size a ≤ S30x128.size a
  h_S30x128 : 0 < S30x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S800000x1_S800000_n_0_0_1_wf : ScatterDims.WF S50000 S800000x1 S800000 [] [0] [0] 1
  gather_S50000x30_S800000x1_S800000x30_1_0_n_n_0_1_130_wf : GatherDims.WF S50000x30 S800000x1 S800000x30 [1] [0] [] [0] [] 1 ![1, 30]
  scatter_S50000x30_S800000x1_S800000x30_1_0_0_1_wf : ScatterDims.WF S50000x30 S800000x1 S800000x30 [1] [0] [0] 1
  dot_S2000x30_S30x128_S2000x128_1_0_0_1_n_n_wf : DotDims.WF S2000x30 S30x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x30.size a ≤ S50000x30.size a
  hwx0_0 : ∀ i : grid0.Coords, EltTy.bits .f32 = 32 ∨ (Rect.block (s := S50000x30) S2000x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x30.size a ≤ S50000x30.size a
  hwx0_1 : ∀ i : grid0.Coords, EltTy.bits .f32 = 32 ∨ (Rect.block (s := S50000x30) S2000x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S30x128.size a ≤ S30x128.size a
  hwx0_2 : ∀ i : grid0.Coords, EltTy.bits .f32 = 32 ∨ (Rect.block (s := S30x128) S30x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x128.size a ≤ S30x128.size a
  hwx0_3 : ∀ i : grid0.Coords, EltTy.bits .f32 = 32 ∨ (Rect.block (s := S30x128) S30x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S256x1.size a
  hwx2_2 : ∀ i : grid2.Coords, EltTy.bits .f32 = 32 ∨ (Rect.block (s := S256x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S256x1.size a
  hwx2_3 : ∀ i : grid2.Coords, EltTy.bits .f32 = 32 ∨ (Rect.block (s := S256x1) S256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .f32 = 32 ∨ (Rect.block (s := S50000x1) S2000x1.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x30_S800000x1_S800000x30_1_0_n_n_0_1_130 : GatherDims S50000x30 S800000x1 S800000x30 where
  offsetDims := [1]
  collapsedSliceDims := [0]
  operandBatchingDims := []
  startIndicesBatchingDims := []
  startIndexMap := [0]
  indexVectorDim := 1
  sliceSizes := ![1, 30]
  wf := gather_S50000x30_S800000x1_S800000x30_1_0_n_n_0_1_130_wf
def scatter_S50000x30_S800000x1_S800000x30_1_0_0_1 : ScatterDims S50000x30 S800000x1 S800000x30 where
  updateWindowDims := [1]
  insertedWindowDims := [0]
  scatterDimsToOperandDims := [0]
  indexVectorDim := 1
  wf := scatter_S50000x30_S800000x1_S800000x30_1_0_0_1_wf
def dot_S2000x30_S30x128_S2000x128_1_0_0_1_n_n : DotDims S2000x30 S30x128 S2000x128 where
  lhsContracting := [1]
  rhsContracting := [0]
  lhsNonContracting := [0]
  rhsNonContracting := [1]
  lhsBatch := []
  rhsBatch := []
  wf := dot_S2000x30_S30x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v24) S2000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S30x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S30x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S2000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x30 : Shape := ⟨2, ![50000, 30]⟩
abbrev S2x800000 : Shape := ⟨2, ![2, 800000]⟩
abbrev S30x128 : Shape := ⟨2, ![30, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x30 : Shape := ⟨2, ![800000, 30]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x30, .f32⟩
  | .hbm, ⟨1, _⟩ => ⟨S2x800000, .i32⟩
  | .hbm, ⟨2, _⟩ => ⟨S30x128, .f32⟩
  | .hbm, ⟨3, _⟩ => ⟨S30x128, .f32⟩
  | .hbm, ⟨4, _⟩ => ⟨S128, .f32⟩
  | .hbm, ⟨5, _⟩ => ⟨S128x256, .f32⟩
  | .hbm, ⟨6, _⟩ => ⟨S128x256, .f32⟩
  | .hbm, ⟨7, _⟩ => ⟨S256, .f32⟩
  | .hbm, ⟨8, _⟩ => ⟨S256x1, .f32⟩
  | .hbm, ⟨9, _⟩ => ⟨S256x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x30, .f32⟩
  | .hbm, ⟨24, _⟩ => ⟨S_, .f32⟩
  | .hbm, ⟨25, _⟩ => ⟨S50000x30, .f32⟩
  | .hbm, ⟨26, _⟩ => ⟨S800000x1, .i32⟩
  | .hbm, ⟨27, _⟩ => ⟨S50000x30, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x30, .f32⟩
  | .hbm, ⟨39, _⟩ => ⟨S50000x30, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x256, .f32⟩
  | .hbm, ⟨92, _⟩ => ⟨S_, .f32⟩
  | .hbm, ⟨93, _⟩ => ⟨S50000x256, .f32⟩
  | .hbm, ⟨94, _⟩ => ⟨S800000x1, .i32⟩
  | .hbm, ⟨95, _⟩ => ⟨S50000x256, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x256, .f32⟩
  | .hbm, ⟨107, _⟩ => ⟨S50000x256, .f32⟩
  | .hbm, ⟨108, _⟩ => ⟨S50000x1, .f32⟩
  | .hbm, ⟨109, _⟩ => ⟨S1x1, .f32⟩
  | .hbm, ⟨110, _⟩ => ⟨S50000x1, .f32⟩
  | .hbm, ⟨111, _⟩ => ⟨S50000x1, .f32⟩
  | .hbm, ⟨112, _⟩ => ⟨S50000x1, .f32⟩
  | .hbm, ⟨113, _⟩ => ⟨S50000x1, .f32⟩
  | _, _ => ⟨S50000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x30 : S_.BroadcastsInDim S50000x30 (![] : Fin 0 → Fin S50000x30.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x30_0_1 : S50000x1.BroadcastsInDim S50000x30 (![0, 1] : Fin 2 → Fin S50000x30.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x30_S800000x1_S800000x30_1_0_n_n_0_1_130_wf : GatherDims.WF S50000x30 S800000x1 S800000x30 [1] [0] [] [0] [] 1 ![1, 30]
  scatter_S50000x30_S800000x1_S800000x30_1_0_0_1_wf : ScatterDims.WF S50000x30 S800000x1 S800000x30 [1] [0] [0] 1
  scatter_S50000_S800000x1_S800000_n_0_0_1_wf : ScatterDims.WF S50000 S800000x1 S800000 [] [0] [0] 1
  dot_S50000x30_S30x128_S50000x128_1_0_0_1_n_n_wf : DotDims.WF S50000x30 S30x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x1_S50000x1_1_0_0_1_n_n_wf : DotDims.WF S50000x256 S256x1 S50000x1 [1] [0] [0] [1] [] []

variable [Facts₀]

def gather_S50000x30_S800000x1_S800000x30_1_0_n_n_0_1_130 : GatherDims S50000x30 S800000x1 S800000x30 where
  offsetDims := [1]
  collapsedSliceDims := [0]
  operandBatchingDims := []
  startIndicesBatchingDims := []
  startIndexMap := [0]
  indexVectorDim := 1
  sliceSizes := ![1, 30]
  wf := gather_S50000x30_S800000x1_S800000x30_1_0_n_n_0_1_130_wf
def scatter_S50000x30_S800000x1_S800000x30_1_0_0_1 : ScatterDims S50000x30 S800000x1 S800000x30 where
  updateWindowDims := [1]
  insertedWindowDims := [0]
  scatterDimsToOperandDims := [0]
  indexVectorDim := 1
  wf := scatter_S50000x30_S800000x1_S800000x30_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x30_S30x128_S50000x128_1_0_0_1_n_n : DotDims S50000x30 S30x128 S50000x128 where
  lhsContracting := [1]
  rhsContracting := [0]
  lhsNonContracting := [0]
  rhsNonContracting := [1]
  lhsBatch := []
  rhsBatch := []
  wf := dot_S50000x30_S30x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KernelRun.lean ====
/-
  The idealized kernel program's run with its result NAMED.

  @main is three pallas_calls among three stretches of host operations. The buffer contents at each boundary are a
  fold from the launch memory: a stretch applies its operations, a call leaves each of its arrays at what its
  write-backs leave and every other buffer as it was. The last boundary's contents `W6` therefore hold, at the
  result's buffer, the value the third call's write-backs leave; every weakly fair execution terminates, nothing
  faulting, in a state whose unscoped buffers are `W6`'s — so the result's buffer ends at `W6` there, and each
  argument's as launched.
-/
import proofs.«123736_j2911987826952_1_alg».proof.Proof.GenP.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result's buffer at the last boundary's
    contents and every argument's buffer as launched. -/
theorem run : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Named

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.LibRealEntries.lean ====
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Mathlib.Tactic

/-!
# Real entries are preserved by the host operations

An extended real is *real* when it is the coercion of a real number, that is, neither `⊤` nor
`⊥`. This file shows that the arithmetic of the extended reals keeps real values real (sums,
differences, products, finite sums, quotients by a nonzero real, reciprocal square roots of a
positive real), and lifts this, entry by entry, to vectors: each host operation whose result
entries are entries of its operands (re-indexings: gather, broadcast, reshape, concatenation,
slicing, selection), or sums and products of them (scatter-add, reduction, contraction,
entrywise arithmetic), sends vectors with real entries to a vector with real entries.
-/

noncomputable section

namespace Cert.Lib.RealEntries

open Idealize.ShloMosaic
open scoped BigOperators

/-- An extended real is real: the coercion of a real number. -/
def IsR (x : EReal) : Prop := ∃ r : ℝ, x = (r : EReal)

/-- Every entry of a vector of extended reals is real. -/
def AllR {S : Shape} (v : S.Idx → EReal) : Prop := ∀ i, IsR (v i)

/-! ### Scalars -/

theorem isR_coe (r : ℝ) : IsR (r : EReal) := ⟨r, rfl⟩

theorem isR_zero : IsR 0 := ⟨0, EReal.coe_zero.symm⟩

theorem isR_one : IsR 1 := ⟨1, EReal.coe_one.symm⟩

/-- A real value is neither infinity. -/
theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

/-- An extended real that is neither infinity is real. -/
theorem isR_of_ne {x : EReal} (ht : x ≠ ⊤) (hb : x ≠ ⊥) : IsR x :=
  ⟨x.toReal, (EReal.coe_toReal ht hb).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

/-- A finite sum of real values is real. -/
theorem isR_sum {ι : Type*} (s : Finset ι) (f : ι → EReal) (h : ∀ i ∈ s, IsR (f i)) :
    IsR (∑ i ∈ s, f i) := by
  classical
  induction s using Finset.induction_on with
  | empty => rw [Finset.sum_empty]; exact isR_zero
  | insert a s ha ih =>
    rw [Finset.sum_insert ha]
    exact (h a (Finset.mem_insert_self a s)).add (ih (fun i hi => h i (Finset.mem_insert_of_mem hi)))

/-- A real value divided by a nonzero real number is real. -/
theorem isR_div {x : EReal} (hx : IsR x) {y : ℝ} (hy : y ≠ 0) : IsR (Ideal.div x (y : EReal)) := by
  rw [Ideal.div_coe hy]; exact hx.mul (isR_coe _)

/-- The reciprocal square root of a positive real number is real. -/
theorem isR_rsqrt {r : ℝ} (hr : 0 < r) : IsR (Ideal.rsqrt (r : EReal)) := by
  rw [Ideal.rsqrt_coe, if_neg (not_lt.2 hr.le), if_neg hr.ne']; exact isR_coe _

/-- A choice between two real values is real. -/
theorem isR_ite {c : Prop} [Decidable c] {x y : EReal} (hx : IsR x) (hy : IsR y) :
    IsR (if c then x else y) := by
  split
  · exact hx
  · exact hy

/-! ### Words -/

/-- The single-precision word `0x47C35000` denotes `100000 = (2²³ + 4411392) · 2⁻⁷`. -/
theorem ofBits_47C35000 : Ideal.ofBits .f32 0x47C35000#32 = ((100000 : ℝ) : EReal) := by
  simp [Ideal.ofBits, Ideal.ieee]
  rw [← EReal.coe_mul]
  norm_num

/-- The single-precision word `0x3F800000` denotes `1 = 2²³ · 2⁻²³`. -/
theorem ofBits_3F800000 : Ideal.ofBits .f32 0x3F800000#32 = 1 := by
  simp [Ideal.ofBits, Ideal.ieee]
  rw [← EReal.coe_mul, ← EReal.coe_one]
  norm_num

/-- The single-precision word `0x3727C5AC` denotes a positive real number,
    `(2²³ + 2606508) · 2⁻⁴⁰`. -/
theorem ofBits_3727C5AC : ∃ e : ℝ, 0 < e ∧ Ideal.ofBits .f32 0x3727C5AC#32 = (e : EReal) := by
  refine ⟨10995116 * (2 ^ 40)⁻¹, by positivity, ?_⟩
  simp [Ideal.ofBits, Ideal.ieee]

/-- The words above, and the zero word, denote real numbers. -/
theorem isR_ofBits_00000000 : IsR (Ideal.ofBits .f32 0x00000000#32) := by
  rw [Ideal.ofBits_zero_f32]; exact isR_zero

theorem isR_ofBits_47C35000 : IsR (Ideal.ofBits .f32 0x47C35000#32) := ⟨_, ofBits_47C35000⟩

theorem isR_ofBits_3F800000 : IsR (Ideal.ofBits .f32 0x3F800000#32) := by
  rw [ofBits_3F800000]; exact isR_one

theorem isR_ofBits_3727C5AC : IsR (Ideal.ofBits .f32 0x3727C5AC#32) := by
  obtain ⟨e, _, h⟩ := ofBits_3727C5AC; exact ⟨e, h⟩

/-! ### Vectors

Each statement is at the extended-real instance, for arbitrary shapes and dimension records. -/

/-- `gather` re-indexes its operand: every result entry is an operand entry. -/
theorem allR_gather {s si t : Shape} {w : Nat} (d : GatherDims s si t) (x : s.Idx → EReal)
    (idx : IVec si w) (hx : AllR x) : AllR (Host.gather d x idx) :=
  fun j => hx (d.operandIdx j idx)

/-- `scatter-add`: every result entry is an operand entry plus a finite sum of update entries. -/
theorem allR_scatterAdd {s si u : Shape} {φ : FTy} {w : Nat} (d : ScatterDims s si u)
    (x : FVec Ideal s φ) (idx : IVec si w) (upd : FVec Ideal u φ) (hx : AllR x) (hu : AllR upd) :
    AllR (Host.scatterAdd (F := Ideal) d x idx upd) := by
  intro i
  show IsR (x i + ∑ j ∈ Finset.univ.filter (fun j => d.resultIdx? j idx = some i), upd j)
  exact (hx i).add (isR_sum _ _ (fun j _ => hu j))

/-- The host sum over axes: every result entry is the initial value plus a finite sum of operand
    entries. -/
theorem allR_reduceAdd {s t u : Shape} {φ : FTy} {axes : List (Fin s.rank)} (x : FVec Ideal s φ)
    (init : u.Idx → Ideal φ) (h : s.ReducesTo axes t) (hu : 0 < u.numel) (hx : AllR x)
    (hi : IsR (init (Shape.Idx.first hu))) : AllR (Host.reduceAdd (F := Ideal) x init h hu) := by
  intro j
  show IsR (init (Shape.Idx.first hu) + ∑ i ∈ Finset.univ.filter (fun i => h.drop i = j), x i)
  exact hi.add (isR_sum _ _ (fun i _ => hx i))

/-- The host sum over axes, with every entry of the initial value real. -/
theorem allR_reduceAdd' {s t u : Shape} {φ : FTy} {axes : List (Fin s.rank)} (x : FVec Ideal s φ)
    (init : u.Idx → Ideal φ) (h : s.ReducesTo axes t) (hu : 0 < u.numel) (hx : AllR x)
    (hi : AllR init) : AllR (Host.reduceAdd (F := Ideal) x init h hu) :=
  allR_reduceAdd x init h hu hx (hi _)

/-- The host contraction: every result entry is a finite sum of products of operand entries. -/
theorem allR_dotGeneral {sl sr so : Shape} {φ₁ φ₂ : FTy} (D : DotDims sl sr so)
    (prec : Option ContractPrecision) (x : FVec Ideal sl φ₁) (w : FVec Ideal sr φ₂)
    (hx : AllR x) (hw : AllR w) : AllR (Host.dotGeneral (F := Ideal) D prec x w) := by
  intro j
  show IsR (FloatOps.dotGeneral D prec .single x w j)
  rw [Ideal.dotGeneral_apply]
  exact isR_sum _ _ (fun k _ => (hx _).mul (hw _))

theorem allR_mulf {S : Shape} {φ : FTy} (x y : FVec Ideal S φ) (hx : AllR x) (hy : AllR y) :
    AllR (mulf (F := Ideal) x y) :=
  fun i => (hx i).mul (hy i)

theorem allR_addf {S : Shape} {φ : FTy} (x y : FVec Ideal S φ) (hx : AllR x) (hy : AllR y) :
    AllR (addf (F := Ideal) x y) :=
  fun i => (hx i).add (hy i)

theorem allR_subf {S : Shape} {φ : FTy} (x y : FVec Ideal S φ) (hx : AllR x) (hy : AllR y) :
    AllR (subf (F := Ideal) x y) :=
  fun i => (hx i).sub (hy i)

theorem allR_negf {S : Shape} {φ : FTy} (x : FVec Ideal S φ) (hx : AllR x) :
    AllR (negf (F := Ideal) x) :=
  fun i => (hx i).neg

/-- A selection between two vectors with real entries has real entries, whatever the mask. -/
theorem allR_select {S : Shape} (c : IVec S 1) (x y : S.Idx → EReal) (hx : AllR x) (hy : AllR y) :
    AllR (select c x y) := by
  intro i
  show IsR (if c i = 1 then x i else y i)
  exact isR_ite (hx i) (hy i)

/-- `broadcast_in_dim` re-indexes its operand. -/
theorem allR_broadcastInDim {s : Shape} (t : Shape) (dims : Fin s.rank → Fin t.rank)
    (h : s.BroadcastsInDim t dims) (x : s.Idx → EReal) (hx : AllR x) :
    AllR (broadcastInDim t dims h x) :=
  fun _ => hx _

/-- A broadcast of a vector along leading axes re-indexes its operand. -/
theorem allR_broadcastTo {s : Shape} (t : Shape) (x : s.Idx → EReal) (h : s.Broadcasts t)
    (hx : AllR x) : AllR (broadcastTo t x h) :=
  fun _ => hx _

/-- A broadcast of a real scalar has real entries. -/
theorem allR_broadcast (t : Shape) (x : EReal) (hx : IsR x) : AllR (broadcast t x) :=
  fun _ => hx

/-- A reshape re-indexes its operand. -/
theorem allR_shapeCast {s : Shape} (t : Shape) (x : s.Idx → EReal) (h : s.ShapeCasts t)
    (hx : AllR x) : AllR (shapeCast t x h) :=
  fun _ => hx _

/-- A slice re-indexes its operand. -/
theorem allR_extractStridedSlice {s : Shape} (t : Shape) (off : Fin s.rank → Nat)
    (x : s.Idx → EReal) (h : s.Slices off t) (hx : AllR x) :
    AllR (extractStridedSlice t off x h) :=
  fun _ => hx _

/-- A strided slice re-indexes its operand. -/
theorem allR_hostSlice {s : Shape} (t : Shape) (start strides : Fin s.rank → Nat)
    (x : s.Idx → EReal) (h : s.SlicesBy start strides t) (hx : AllR x) :
    AllR (Host.slice t start strides x h) :=
  fun _ => hx _

/-- A transposition re-indexes its operand. -/
theorem allR_transpose {s : Shape} (t : Shape) (perm : List (Fin s.rank)) (x : s.Idx → EReal)
    (h : s.Transposes perm t) (hx : AllR x) : AllR (transpose t perm x h) :=
  fun _ => hx _

/-- A concatenation of vectors with real entries has real entries: every result entry is an
    entry of one of the pieces. -/
theorem allR_concatenate_list (t : Shape) (a : Fin t.rank)
    (xs : List ((s : Shape) × (s.Idx → EReal))) (h : Shape.Concatenates (xs.map (·.1)) t a)
    (hxs : ∀ p ∈ xs, AllR p.2) : AllR (concatenate t a xs h) := by
  intro j
  unfold concatenate
  exact hxs _ (List.getElem_mem _) _

/-- A concatenation of two vectors with real entries has real entries. -/
theorem allR_concatenate {s₁ s₂ : Shape} (t : Shape) (a : Fin t.rank) (x₁ : s₁.Idx → EReal)
    (x₂ : s₂.Idx → EReal)
    (h : Shape.Concatenates
      (([⟨s₁, x₁⟩, ⟨s₂, x₂⟩] : List ((s : Shape) × (s.Idx → EReal))).map (·.1)) t a)
    (h₁ : AllR x₁) (h₂ : AllR x₂) :
    AllR (concatenate t a [⟨s₁, x₁⟩, ⟨s₂, x₂⟩] h) := by
  apply allR_concatenate_list
  intro p hp
  simp only [List.mem_cons, List.not_mem_nil, or_false] at hp
  rcases hp with rfl | rfl
  · exact h₁
  · exact h₂

/-- The entrywise host quotient of a vector with real entries by a vector whose entries are
    nonzero real numbers has real entries. -/
theorem allR_hostDivf {S : Shape} {φ : FTy} (x y : FVec Ideal S φ) (hx : AllR x)
    (hy : ∀ i, ∃ r : ℝ, r ≠ 0 ∧ y i = (r : EReal)) : AllR (Host.divf (F := Ideal) x y) := by
  intro i
  obtain ⟨r, hr, hyi⟩ := hy i
  show IsR (Ideal.div (x i) (y i))
  rw [hyi]
  exact isR_div (hx i) hr

/-- The entrywise quotient, likewise. -/
theorem allR_divf {S : Shape} {φ : FTy} (x y : FVec Ideal S φ) (hx : AllR x)
    (hy : ∀ i, ∃ r : ℝ, r ≠ 0 ∧ y i = (r : EReal)) : AllR (divf (F := Ideal) x y) := by
  intro i
  obtain ⟨r, hr, hyi⟩ := hy i
  show IsR (Ideal.div (x i) (y i))
  rw [hyi]
  exact isR_div (hx i) hr

/-- The entrywise host reciprocal square root of a vector whose entries are positive real
    numbers has real entries. -/
theorem allR_hostRsqrt {S : Shape} {φ : FTy} (x : FVec Ideal S φ)
    (hx : ∀ i, ∃ r : ℝ, 0 < r ∧ x i = (r : EReal)) : AllR (Host.rsqrt (F := Ideal) x) := by
  intro i
  obtain ⟨r, hr, hxi⟩ := hx i
  show IsR (Ideal.rsqrt (x i))
  rw [hxi]
  exact isR_rsqrt hr

/-- The entrywise reciprocal square root, likewise. -/
theorem allR_rsqrt {S : Shape} {φ : FTy} (x : FVec Ideal S φ)
    (hx : ∀ i, ∃ r : ℝ, 0 < r ∧ x i = (r : EReal)) : AllR (rsqrt (F := Ideal) x) := by
  intro i
  obtain ⟨r, hr, hxi⟩ := hx i
  show IsR (Ideal.rsqrt (x i))
  rw [hxi]
  exact isR_rsqrt hr

/-- A constant vector whose word denotes a real number has real entries. -/
theorem allR_constant (S : Shape) (φ : FTy) (w : BitVec φ.bits) (h : IsR (Ideal.ofBits φ w)) :
    AllR (constant (F := Ideal) S φ w) :=
  fun _ => h

end Cert.Lib.RealEntries

end
-- ==== Proof.LibSageLayer.lean ====
/-
  General facts about one layer of mean-aggregating graph convolution, at exact arithmetic (floats as extended reals),
  as a function of arrays read index by index. It imports no program (only the library and the two general lemma files
  Proof/LibDense.lean and Proof/LibRealEntries.lean): the layer function `lin` / `act`, the bias-order law, and the mean
  law both for scalars (`mean_scalar`) and for whole arrays under the broadcasts a host program writes (`mean_array`).

  For node features `H` of shape [M, K], their neighbourhood means `A` (same shape), weights `Wl`, `Wr` of shape
  [K, N] and a bias `b` of shape [N], the layer's entry at (p, q) is

      Σ_k A(p, k) · Wl(k, q)  +  Σ_k H(p, k) · Wr(k, q)  +  b(q),

  optionally followed by the rectifier (the larger of that and the zero word's value).

  Two scalar laws join the two programs:
  * the bias may be added before or after the second product: (a + b) + c = (a + c) + b in any commutative monoid,
    so it holds of extended reals with no finiteness assumption;
  * a neighbourhood mean may be taken by multiplying the sum with the reciprocal 1 / max(count, 1) or by dividing the
    sum by max(count, 1): the divisor is at least 1, hence not zero, and off zero the exact quotient x / y is
    x · y⁻¹, so 1 / y = y⁻¹ and s · (1 / y) = s / y for every extended real s and y (infinite ones included).
-/
import Idealize.ShloMosaic.PureOps.Ideal.Laws
import Idealize.ShloMosaic.Lib.ValueIdx
import proofs.«123736_j2911987826952_1_alg».proof.Proof.LibDense
import proofs.«123736_j2911987826952_1_alg».proof.Proof.LibRealEntries

noncomputable section

namespace Cert.Sage

open Idealize.ShloMosaic Idealize.ShloMosaic.ValueIdx

variable {M K N : Nat}

/-- The layer before the rectifier: at (p, q), Σ_k A(p,k)·Wl(k,q) + Σ_k H(p,k)·Wr(k,q) + b(q). -/
def lin (A H : (⟨2, ![M, K]⟩ : Shape).Idx → EReal) (Wl Wr : (⟨2, ![K, N]⟩ : Shape).Idx → EReal)
    (b : (⟨1, ![N]⟩ : Shape).Idx → EReal) : (⟨2, ![M, N]⟩ : Shape).Idx → EReal :=
  fun i => ∑ k : Fin K, A (ix2 (n0 := M) (n1 := K) ⟨(i 0).val, (i 0).isLt⟩ k) * Wl (ix2 (n0 := K) (n1 := N) k ⟨(i 1).val, (i 1).isLt⟩)
    + ∑ k : Fin K, H (ix2 (n0 := M) (n1 := K) ⟨(i 0).val, (i 0).isLt⟩ k) * Wr (ix2 (n0 := K) (n1 := N) k ⟨(i 1).val, (i 1).isLt⟩)
    + b (ix1 (n := N) ⟨(i 1).val, (i 1).isLt⟩)

theorem lin_apply (A H : (⟨2, ![M, K]⟩ : Shape).Idx → EReal) (Wl Wr : (⟨2, ![K, N]⟩ : Shape).Idx → EReal)
    (b : (⟨1, ![N]⟩ : Shape).Idx → EReal) (p : Fin M) (q : Fin N) :
    lin A H Wl Wr b (ix2 p q)
      = ∑ k : Fin K, A (ix2 p k) * Wl (ix2 k q) + ∑ k : Fin K, H (ix2 p k) * Wr (ix2 k q) + b (ix1 q) := rfl

/-- The layer with the rectifier. -/
def act (A H : (⟨2, ![M, K]⟩ : Shape).Idx → EReal) (Wl Wr : (⟨2, ![K, N]⟩ : Shape).Idx → EReal)
    (b : (⟨1, ![N]⟩ : Shape).Idx → EReal) : (⟨2, ![M, N]⟩ : Shape).Idx → EReal :=
  fun i => max (lin A H Wl Wr b i) Cert.LibDense.zeroWord

theorem act_apply (A H : (⟨2, ![M, K]⟩ : Shape).Idx → EReal) (Wl Wr : (⟨2, ![K, N]⟩ : Shape).Idx → EReal)
    (b : (⟨1, ![N]⟩ : Shape).Idx → EReal) (p : Fin M) (q : Fin N) :
    act A H Wl Wr b (ix2 p q)
      = max (∑ k : Fin K, A (ix2 p k) * Wl (ix2 k q) + ∑ k : Fin K, H (ix2 p k) * Wr (ix2 k q) + b (ix1 q))
          Cert.LibDense.zeroWord := rfl

/-- The bias added after the first product and before the second is the bias added last. -/
theorem bias_between (a c b : EReal) : a + b + c = a + c + b := add_right_comm a b c

/-- The one word: the f32 pattern of 1.0. -/
abbrev oneWord : EReal := Ideal.ofBits .f32 0x3F800000#32

/-- A sum times the reciprocal of max(count, 1) is the sum divided by max(count, 1), for all extended reals. -/
theorem mean_scalar (s cnt : EReal) :
    s * Ideal.div oneWord (max cnt oneWord) = Ideal.div s (max cnt oneWord) := by
  have h1 : oneWord = 1 := Cert.Lib.RealEntries.ofBits_3F800000
  rw [h1]
  have hne : max cnt (1 : EReal) ≠ 0 := ne_of_gt (lt_of_lt_of_le zero_lt_one (le_max_right _ _))
  rw [Ideal.div, if_neg hne, Ideal.div, if_neg hne, one_mul]

/-- The layer function of equal inputs. -/
theorem act_congr {A A' H H' : (⟨2, ![M, K]⟩ : Shape).Idx → EReal} {Wl Wl' Wr Wr' : (⟨2, ![K, N]⟩ : Shape).Idx → EReal}
    {b b' : (⟨1, ![N]⟩ : Shape).Idx → EReal} (hA : A = A') (hH : H = H') (hl : Wl = Wl') (hr : Wr = Wr') (hb : b = b') :
    act A H Wl Wr b = act A' H' Wl' Wr' b' := by subst hA hH hl hr hb; rfl

theorem lin_congr {A A' H H' : (⟨2, ![M, K]⟩ : Shape).Idx → EReal} {Wl Wl' Wr Wr' : (⟨2, ![K, N]⟩ : Shape).Idx → EReal}
    {b b' : (⟨1, ![N]⟩ : Shape).Idx → EReal} (hA : A = A') (hH : H = H') (hl : Wl = Wl') (hr : Wr = Wr') (hb : b = b') :
    lin A H Wl Wr b = lin A' H' Wl' Wr' b' := by subst hA hH hl hr hb; rfl

/-- The neighbourhood means, array by array: the sums times the broadcast column of reciprocals 1 / max(count, 1) are
    the sums divided by the broadcast column of max(count, 1). A broadcast reads its operand at an index computed from
    the output's, so both sides read the same count at the same place, and the scalar law applies entry by entry. -/
theorem mean_array {n f : Nat} (S : (⟨2, ![n, f]⟩ : Shape).Idx → EReal) (cnt : (⟨1, ![n]⟩ : Shape).Idx → EReal)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, f]⟩ ![0, 1]) :
    mulf (F := Ideal) (φ := .f32) S
        (broadcastInDim ⟨2, ![n, f]⟩ ![0, 1] h2 (broadcastInDim ⟨2, ![n, 1]⟩ ![0] h1
          (Host.divf (F := Ideal) (φ := .f32) (broadcastInDim ⟨1, ![n]⟩ ![] h0 (constant (F := Ideal) ⟨0, ![]⟩ .f32 0x3F800000#32))
            (maximumf (F := Ideal) (φ := .f32) cnt (broadcastInDim ⟨1, ![n]⟩ ![] h0 (constant (F := Ideal) ⟨0, ![]⟩ .f32 0x3F800000#32))))))
      = Host.divf (F := Ideal) (φ := .f32) S
        (broadcastInDim ⟨2, ![n, f]⟩ ![0, 1] h2 (broadcastInDim ⟨2, ![n, 1]⟩ ![0] h1
          (maximumf (F := Ideal) (φ := .f32) cnt (broadcastInDim ⟨1, ![n]⟩ ![] h0 (constant (F := Ideal) ⟨0, ![]⟩ .f32 0x3F800000#32))))) := by
  funext i
  exact mean_scalar (S i) _

end Cert.Sage

end
-- ==== Proof.LayerBody0.lean ====
/-
  The value one grid point of layer 1's kernel stores, read at an entry (p, q) of its 2000x128 block, at exact
  arithmetic: the body rounds its four matrix operands to bf16 (the identity on extended reals), multiplies the block
  of neighbourhood means with `Wl` and the block of node features with `Wr` into zero accumulators, adds the two
  products and then the bias broadcast down the rows, and takes the larger of that and zero. So the entry is

      max (Σ_k a(p,k)·wl(k,q) + Σ_k h(p,k)·wr(k,q) + b(q), 0).
-/
import proofs.«123736_j2911987826952_1_alg».proof.Proof.Gen.KernelIdeal.Skeleton
import proofs.«123736_j2911987826952_1_alg».proof.Proof.LibSageLayer
import Idealize.ShloMosaic.Lib.Pipeline.Value

noncomputable section

namespace Cert.KernelIdeal.Layer0

open Idealize.ShloMosaic Idealize.ShloMosaic.ValueIdx Cert.KernelIdeal Cert.KernelIdeal.Gen

/-! The product's index maps, coordinate by coordinate: the left operand is read at (row of the output, contracted
    coordinate), the right one at (contracted coordinate, column of the output). -/

theorem lhs_row (i : S2000x128.Idx) (c : dot_S2000x30_S30x128_S2000x128_1_0_0_1_n_n.contr.Idx) :
    (dot_S2000x30_S30x128_S2000x128_1_0_0_1_n_n.lhsIdx i c 0).val = (i 0).val := by
  unfold DotDims.lhsIdx
  rw [dif_neg (show ¬(0 : Fin S2000x30.rank) ∈ dot_S2000x30_S30x128_S2000x128_1_0_0_1_n_n.lhsBatch by decide), dif_pos (show (0 : Fin S2000x30.rank) ∈ dot_S2000x30_S30x128_S2000x128_1_0_0_1_n_n.lhsNonContracting by decide)]
  rfl
theorem lhs_contr (i : S2000x128.Idx) (c : dot_S2000x30_S30x128_S2000x128_1_0_0_1_n_n.contr.Idx) :
    (dot_S2000x30_S30x128_S2000x128_1_0_0_1_n_n.lhsIdx i c 1).val = (c ⟨0, by decide⟩).val :=
  dot_S2000x30_S30x128_S2000x128_1_0_0_1_n_n.lhsIdx_val_of_single rfl i c
theorem rhs_contr (i : S2000x128.Idx) (c : dot_S2000x30_S30x128_S2000x128_1_0_0_1_n_n.contr.Idx) :
    (dot_S2000x30_S30x128_S2000x128_1_0_0_1_n_n.rhsIdx i c 0).val = (c ⟨0, by decide⟩).val :=
  dot_S2000x30_S30x128_S2000x128_1_0_0_1_n_n.rhsIdx_val_of_single rfl i c
theorem rhs_col (i : S2000x128.Idx) (c : dot_S2000x30_S30x128_S2000x128_1_0_0_1_n_n.contr.Idx) :
    (dot_S2000x30_S30x128_S2000x128_1_0_0_1_n_n.rhsIdx i c 1).val = (i 1).val := by
  unfold DotDims.rhsIdx
  rw [dif_neg (show ¬(1 : Fin S30x128.rank) ∈ dot_S2000x30_S30x128_S2000x128_1_0_0_1_n_n.rhsBatch by decide), dif_pos (show (1 : Fin S30x128.rank) ∈ dot_S2000x30_S30x128_S2000x128_1_0_0_1_n_n.rhsNonContracting by decide)]
  rfl

/-- One of the body's two products into a zero accumulator, read at (p, q): the row of the left block against the
    column of the weights. -/
theorem product_rc (x : FVec Ideal S2000x30 .bf16) (w : FVec Ideal S30x128 .bf16) (p : Fin 2000) (q : Fin 128) :
    matmul dot_S2000x30_S30x128_S2000x128_1_0_0_1_n_n none x w (constant S2000x128 .f32 0x00000000#32) (ix2 p q)
      = ∑ k : Fin 30, x (ix2 p k) * w (ix2 k q) :=
  Cert.LibDense.matmul_zero_rc dot_S2000x30_S30x128_S2000x128_1_0_0_1_n_n rfl rfl lhs_row lhs_contr rhs_contr rhs_col none x w p q

/-- The stored value at (p, q). -/
theorem stored_rc (x0 : Vec Ideal S2000x30 .f32) (x1 : Vec Ideal S2000x30 .f32) (x2 : Vec Ideal S30x128 .f32) (x3 : Vec Ideal S30x128 .f32) (x4 : Vec Ideal S128 .f32) (p : Fin 2000) (q : Fin 128) :
    k0_pay1 (F := Ideal) x0 x1 x2 x3 x4 (ix2 p q)
      = max (∑ k : Fin 30, x0 (ix2 p k) * x2 (ix2 k q) + ∑ k : Fin 30, x1 (ix2 p k) * x3 (ix2 k q) + x4 (ix1 q))
          Cert.LibDense.zeroWord := by
  unfold k0_pay1
  refine (maximumf_apply _ _ (ix2 p q)).trans ?_
  refine congrArg₂ max ?_ rfl
  refine (addf_apply _ _ (ix2 p q)).trans ?_
  refine congrArg₂ (· + ·) ?_ (Cert.LibDense.rowBroadcast_rc x4 _ _ p q)
  refine (addf_apply _ _ (ix2 p q)).trans ?_
  refine congrArg₂ (· + ·) ?_ ?_
  · refine (product_rc _ _ p q).trans (Finset.sum_congr rfl fun k _ => ?_)
    exact congrArg₂ (· * ·) (congrFun (shapeCast_self x0 _) (ix2 p k)) rfl
  · refine (product_rc _ _ p q).trans (Finset.sum_congr rfl fun k _ => ?_)
    exact congrArg₂ (· * ·) rfl rfl

end Cert.KernelIdeal.Layer0

end
-- ==== Proof.LayerArray0.lean ====
/-
  Layer 1's output array after its pallas_call, as ONE function of the arrays the call finds.

  The grid has 25 points; point t reads rows 2000·t … 2000·t + 1999 of the neighbourhood means and of the node
  features, the whole of both weight matrices and the whole bias, and writes rows 2000·t … 2000·t + 1999 of the
  output. The stored block at (p, q) is the layer's entry (Proof/LayerBody0.lean) of those rows, so what point t writes
  back is block t of the layer function of the whole arrays; the 25 blocks tile the 50000 rows (row i lies in block
  i / 2000), so the array ends as that function everywhere.
-/
import proofs.«123736_j2911987826952_1_alg».proof.Proof.GenP.KernelIdeal.Frame
import proofs.«123736_j2911987826952_1_alg».proof.Proof.LayerBody0
import Idealize.ShloMosaic.Lib.Pipeline.Value

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The layer function of the arrays as the call finds them: neighbourhood means, node features, the two weight
    matrices, the bias. -/
def whole (c : Dev nD) : S50000x128.Idx → EReal :=
  Cert.Sage.act (M := 50000) (K := 30) (N := 128) (V c main_v24) (V c main_arg0) (V c main_arg2) (V c main_arg3) (V c main_arg4)

/-- Where each window's block sits at point t: the two row-blocked inputs move with the output, the weights and the
    bias stay at block 0, and the output's row block is the point's number. -/
theorem where_blocks : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 :=
  (by decide +kernel : ∀ t : Fin grid0.N, _)

/-- Every row block is some point's. -/
theorem block_onto : ∀ (b : Fin 25), ∃ t : Fin cfg0.N, win0_5.index t = ![b.val, 0] :=
  (by decide +kernel : ∀ (b : Fin 25), ∃ t : Fin grid0.N, win0_5.index t = ![b.val, 0])

/-- What point t writes back is block t of the layer function of the whole arrays. -/
theorem written_back (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero off2]
  simp only [View.ld_unit_zero (S := S2000x30) off2, View.ld_unit_zero (S := S30x128) off2, View.ld_unit_zero (S := S128) off1]
  obtain ⟨e00, e01, e10, e11, e20, e21, e30, e31, e40, e51⟩ := where_blocks t
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
      = whole V c (((cfg0.win 5).blk t).view.emb (ix2 p q))
  refine (stored_rc (iblk0 V c 0 t) (iblk0 V c 1 t) (iblk0 V c 2 t) (iblk0 V c 3 t) (iblk0 V c 4 t) p q).trans ?_
  unfold whole Cert.Sage.act Cert.Sage.lin
  refine congrArg₂ max ?_ rfl
  refine congrArg₂ (· + ·) (congrArg₂ (· + ·)
    (Finset.sum_congr rfl fun k _ => congrArg₂ (· * ·) ?_ ?_) (Finset.sum_congr rfl fun k _ => congrArg₂ (· * ·) ?_ ?_)) ?_
  · show V c main_v24 (((cfg0.win 0).blk t).view.emb (ix2 p k)) = V c main_v24 _
    refine congrArg (V c main_v24) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 30 + 1 * k.val = k.val; omega
  · show V c main_arg2 (((cfg0.win 2).blk t).view.emb (ix2 k q)) = V c main_arg2 _
    refine congrArg (V c main_arg2) (funext fun a => Fin.ext ?_)
    match a with
    | ⟨0, _⟩ => show win0_2.index t (0 : Fin 2) * 30 + 1 * k.val = k.val; omega
    | ⟨1, _⟩ => show win0_2.index t (1 : Fin 2) * 128 + 1 * q.val = win0_5.index t (1 : Fin 2) * 128 + 1 * q.val; omega
  · show V c main_arg0 (((cfg0.win 1).blk t).view.emb (ix2 p k)) = V c main_arg0 _
    refine congrArg (V c main_arg0) (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 30 + 1 * k.val = k.val; omega
  · show V c main_arg3 (((cfg0.win 3).blk t).view.emb (ix2 k q)) = V c main_arg3 _
    refine congrArg (V c main_arg3) (funext fun a => Fin.ext ?_)
    match a with
    | ⟨0, _⟩ => show win0_3.index t (0 : Fin 2) * 30 + 1 * k.val = k.val; omega
    | ⟨1, _⟩ => show win0_3.index t (1 : Fin 2) * 128 + 1 * q.val = win0_5.index t (1 : Fin 2) * 128 + 1 * q.val; omega
  · show V c main_arg4 (((cfg0.win 4).blk t).view.emb (ix1 q)) = V c main_arg4 _
    refine congrArg (V c main_arg4) (funext fun a => Fin.ext ?_)
    match a with
    | ⟨0, _⟩ => show win0_4.index t (0 : Fin 1) * 128 + 1 * q.val = win0_5.index t (1 : Fin 2) * 128 + 1 * q.val; omega

/-- An index of the output array is in point t's block iff each coordinate is in the block's range on its axis. -/
theorem in_block (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25).slice (win0_5.rect t)).set ↔ _
  rw [View.set_slice_whole, Rect.mem_set_unit]
  exact Iff.rfl

/-- Every index of the output array is in the block of the point numbered by its row divided by 2000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := block_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [in_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the call is the layer function of the arrays the call found. -/
theorem array_after (c : Dev nD) : (dat0 V c).arrAt 5 cfg0.N = whole V c :=
  (dat0 V c).arrAt_eq_of_cover 5 (whole V c) (fun t _ => written_back V c t) covered

end Cert.KernelIdeal.Layer0

end
-- ==== Proof.LayerBody1.lean ====
/-
  The value one grid point of layer 2's kernel stores, read at an entry (p, q) of its 2000x256 block, at exact
  arithmetic: the body rounds its four matrix operands to bf16 (the identity on extended reals), multiplies the block
  of neighbourhood means with `Wl` and the block of node features with `Wr` into zero accumulators, adds the two
  products and then the bias broadcast down the rows, and takes the larger of that and zero. So the entry is

      max (Σ_k a(p,k)·wl(k,q) + Σ_k h(p,k)·wr(k,q) + b(q), 0).
-/
import proofs.«123736_j2911987826952_1_alg».proof.Proof.Gen.KernelIdeal.Skeleton
import proofs.«123736_j2911987826952_1_alg».proof.Proof.LibSageLayer
import Idealize.ShloMosaic.Lib.Pipeline.Value

noncomputable section

namespace Cert.KernelIdeal.Layer1

open Idealize.ShloMosaic Idealize.ShloMosaic.ValueIdx Cert.KernelIdeal Cert.KernelIdeal.Gen

/-! The product's index maps, coordinate by coordinate: the left operand is read at (row of the output, contracted
    coordinate), the right one at (contracted coordinate, column of the output). -/

theorem lhs_row (i : S2000x256.Idx) (c : dot_S2000x128_S128x256_S2000x256_1_0_0_1_n_n.contr.Idx) :
    (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_contr (i : S2000x256.Idx) (c : dot_S2000x128_S128x256_S2000x256_1_0_0_1_n_n.contr.Idx) :
    (dot_S2000x128_S128x256_S2000x256_1_0_0_1_n_n.lhsIdx i c 1).val = (c ⟨0, by decide⟩).val :=
  dot_S2000x128_S128x256_S2000x256_1_0_0_1_n_n.lhsIdx_val_of_single rfl i c
theorem rhs_contr (i : S2000x256.Idx) (c : dot_S2000x128_S128x256_S2000x256_1_0_0_1_n_n.contr.Idx) :
    (dot_S2000x128_S128x256_S2000x256_1_0_0_1_n_n.rhsIdx i c 0).val = (c ⟨0, by decide⟩).val :=
  dot_S2000x128_S128x256_S2000x256_1_0_0_1_n_n.rhsIdx_val_of_single rfl i c
theorem rhs_col (i : S2000x256.Idx) (c : dot_S2000x128_S128x256_S2000x256_1_0_0_1_n_n.contr.Idx) :
    (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- One of the body's two products into a zero accumulator, read at (p, q): the row of the left block against the
    column of the weights. -/
theorem product_rc (x : FVec Ideal S2000x128 .bf16) (w : FVec Ideal S128x256 .bf16) (p : Fin 2000) (q : Fin 256) :
    matmul dot_S2000x128_S128x256_S2000x256_1_0_0_1_n_n none x w (constant S2000x256 .f32 0x00000000#32) (ix2 p q)
      = ∑ k : Fin 128, x (ix2 p k) * w (ix2 k q) :=
  Cert.LibDense.matmul_zero_rc dot_S2000x128_S128x256_S2000x256_1_0_0_1_n_n rfl rfl lhs_row lhs_contr rhs_contr rhs_col none x w p q

/-- The stored value at (p, q). -/
theorem stored_rc (x0 : Vec Ideal S2000x128 .f32) (x1 : Vec Ideal S2000x128 .f32) (x2 : Vec Ideal S128x256 .f32) (x3 : Vec Ideal S128x256 .f32) (x4 : Vec Ideal S256 .f32) (p : Fin 2000) (q : Fin 256) :
    k1_pay1 (F := Ideal) x0 x1 x2 x3 x4 (ix2 p q)
      = max (∑ k : Fin 128, x0 (ix2 p k) * x2 (ix2 k q) + ∑ k : Fin 128, x1 (ix2 p k) * x3 (ix2 k q) + x4 (ix1 q))
          Cert.LibDense.zeroWord := by
  unfold k1_pay1
  refine (maximumf_apply _ _ (ix2 p q)).trans ?_
  refine congrArg₂ max ?_ rfl
  refine (addf_apply _ _ (ix2 p q)).trans ?_
  refine congrArg₂ (· + ·) ?_ (Cert.LibDense.rowBroadcast_rc x4 _ _ p q)
  refine (addf_apply _ _ (ix2 p q)).trans ?_
  refine congrArg₂ (· + ·) ?_ ?_
  · refine (product_rc _ _ p q).trans (Finset.sum_congr rfl fun k _ => ?_)
    exact congrArg₂ (· * ·) (congrFun (shapeCast_self x0 _) (ix2 p k)) rfl
  · refine (product_rc _ _ p q).trans (Finset.sum_congr rfl fun k _ => ?_)
    exact congrArg₂ (· * ·) (congrFun (shapeCast_self x1 _) (ix2 p k)) rfl

end Cert.KernelIdeal.Layer1

end
-- ==== Proof.LayerArray1.lean ====
/-
  Layer 2's output array after its pallas_call, as ONE function of the arrays the call finds.

  The grid has 25 points; point t reads rows 2000·t … 2000·t + 1999 of the neighbourhood means and of the node
  features, the whole of both weight matrices and the whole bias, and writes rows 2000·t … 2000·t + 1999 of the
  output. The stored block at (p, q) is the layer's entry (Proof/LayerBody1.lean) of those rows, so what point t writes
  back is block t of the layer function of the whole arrays; the 25 blocks tile the 50000 rows (row i lies in block
  i / 2000), so the array ends as that function everywhere.
-/
import proofs.«123736_j2911987826952_1_alg».proof.Proof.GenP.KernelIdeal.Frame
import proofs.«123736_j2911987826952_1_alg».proof.Proof.LayerBody1
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The layer function of the arrays as the call finds them: neighbourhood means, node features, the two weight
    matrices, the bias. -/
def whole (c : Dev nD) : S50000x256.Idx → EReal :=
  Cert.Sage.act (M := 50000) (K := 128) (N := 256) (V c main_v37) (V c main_v25) (V c main_arg5) (V c main_arg6) (V c main_arg7)

/-- Where each window's block sits at point t: the two row-blocked inputs move with the output, the weights and the
    bias stay at block 0, and the output's row block is the point's number. -/
theorem where_blocks : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 :=
  (by decide +kernel : ∀ t : Fin grid1.N, _)

/-- Every row block is some point's. -/
theorem block_onto : ∀ (b : Fin 25), ∃ t : Fin cfg1.N, win1_5.index t = ![b.val, 0] :=
  (by decide +kernel : ∀ (b : Fin 25), ∃ t : Fin grid1.N, win1_5.index t = ![b.val, 0])

/-- What point t writes back is block t of the layer function of the whole arrays. -/
theorem written_back (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero off2]
  simp only [View.ld_unit_zero (S := S2000x128) off2, View.ld_unit_zero (S := S128x256) off2, View.ld_unit_zero (S := S256) off1]
  obtain ⟨e00, e01, e10, e11, e20, e21, e30, e31, e40, e51⟩ := where_blocks t
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (iblk1 V c 3 t) (iblk1 V c 4 t) (ix2 p q)
      = whole V c (((cfg1.win 5).blk t).view.emb (ix2 p q))
  refine (stored_rc (iblk1 V c 0 t) (iblk1 V c 1 t) (iblk1 V c 2 t) (iblk1 V c 3 t) (iblk1 V c 4 t) p q).trans ?_
  unfold whole Cert.Sage.act Cert.Sage.lin
  refine congrArg₂ max ?_ rfl
  refine congrArg₂ (· + ·) (congrArg₂ (· + ·)
    (Finset.sum_congr rfl fun k _ => congrArg₂ (· * ·) ?_ ?_) (Finset.sum_congr rfl fun k _ => congrArg₂ (· * ·) ?_ ?_)) ?_
  · show V c main_v37 (((cfg1.win 0).blk t).view.emb (ix2 p k)) = V c main_v37 _
    refine congrArg (V c main_v37) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * k.val = k.val; omega
  · show V c main_arg5 (((cfg1.win 2).blk t).view.emb (ix2 k q)) = V c main_arg5 _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 256 + 1 * q.val = win1_5.index t (1 : Fin 2) * 256 + 1 * q.val; omega
  · show V c main_v25 (((cfg1.win 1).blk t).view.emb (ix2 p k)) = V c main_v25 _
    refine congrArg (V c main_v25) (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 128 + 1 * k.val = k.val; omega
  · show V c main_arg6 (((cfg1.win 3).blk t).view.emb (ix2 k q)) = V c main_arg6 _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 256 + 1 * q.val = win1_5.index t (1 : Fin 2) * 256 + 1 * q.val; omega
  · show V c main_arg7 (((cfg1.win 4).blk t).view.emb (ix1 q)) = V c main_arg7 _
    refine congrArg (V c main_arg7) (funext fun a => Fin.ext ?_)
    match a with
    | ⟨0, _⟩ => show win1_4.index t (0 : Fin 1) * 256 + 1 * q.val = win1_5.index t (1 : Fin 2) * 256 + 1 * q.val; omega

/-- An index of the output array is in point t's block iff each coordinate is in the block's range on its axis. -/
theorem in_block (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v38).slice (win1_5.rect t)).set ↔ _
  rw [View.set_slice_whole, Rect.mem_set_unit]
  exact Iff.rfl

/-- Every index of the output array is in the block of the point numbered by its row divided by 2000. -/
theorem covered (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := block_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [in_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The output array after the call is the layer function of the arrays the call found. -/
theorem array_after (c : Dev nD) : (dat1 V c).arrAt 5 cfg1.N = whole V c :=
  (dat1 V c).arrAt_eq_of_cover 5 (whole V c) (fun t _ => written_back V c t) covered

end Cert.KernelIdeal.Layer1

end
-- ==== Proof.LayerBody2.lean ====
/-
  The value one grid point of layer 3's kernel stores, read at an entry (p, q) of its 2000x1 block, at exact
  arithmetic: the body rounds its four matrix operands to bf16 (the identity on extended reals), multiplies the block
  of neighbourhood means with `Wl` and the block of node features with `Wr` into zero accumulators, adds the two
  products and then the bias broadcast down the rows. So the entry is

      Σ_k a(p,k)·wl(k,q) + Σ_k h(p,k)·wr(k,q) + b(q).
-/
import proofs.«123736_j2911987826952_1_alg».proof.Proof.Gen.KernelIdeal.Skeleton
import proofs.«123736_j2911987826952_1_alg».proof.Proof.LibSageLayer
import Idealize.ShloMosaic.Lib.Pipeline.Value

noncomputable section

namespace Cert.KernelIdeal.Layer2

open Idealize.ShloMosaic Idealize.ShloMosaic.ValueIdx Cert.KernelIdeal Cert.KernelIdeal.Gen

/-! The product's index maps, coordinate by coordinate: the left operand is read at (row of the output, contracted
    coordinate), the right one at (contracted coordinate, column of the output). -/

theorem lhs_row (i : S2000x1.Idx) (c : dot_S2000x256_S256x1_S2000x1_1_0_0_1_n_n.contr.Idx) :
    (dot_S2000x256_S256x1_S2000x1_1_0_0_1_n_n.lhsIdx i c 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
theorem lhs_contr (i : S2000x1.Idx) (c : dot_S2000x256_S256x1_S2000x1_1_0_0_1_n_n.contr.Idx) :
    (dot_S2000x256_S256x1_S2000x1_1_0_0_1_n_n.lhsIdx i c 1).val = (c ⟨0, by decide⟩).val :=
  dot_S2000x256_S256x1_S2000x1_1_0_0_1_n_n.lhsIdx_val_of_single rfl i c
theorem rhs_contr (i : S2000x1.Idx) (c : dot_S2000x256_S256x1_S2000x1_1_0_0_1_n_n.contr.Idx) :
    (dot_S2000x256_S256x1_S2000x1_1_0_0_1_n_n.rhsIdx i c 0).val = (c ⟨0, by decide⟩).val :=
  dot_S2000x256_S256x1_S2000x1_1_0_0_1_n_n.rhsIdx_val_of_single rfl i c
theorem rhs_col (i : S2000x1.Idx) (c : dot_S2000x256_S256x1_S2000x1_1_0_0_1_n_n.contr.Idx) :
    (dot_S2000x256_S256x1_S2000x1_1_0_0_1_n_n.rhsIdx i c 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

/-- One of the body's two products into a zero accumulator, read at (p, q): the row of the left block against the
    column of the weights. -/
theorem product_rc (x : FVec Ideal S2000x256 .bf16) (w : FVec Ideal S256x1 .bf16) (p : Fin 2000) (q : Fin 1) :
    matmul dot_S2000x256_S256x1_S2000x1_1_0_0_1_n_n none x w (constant S2000x1 .f32 0x00000000#32) (ix2 p q)
      = ∑ k : Fin 256, x (ix2 p k) * w (ix2 k q) :=
  Cert.LibDense.matmul_zero_rc dot_S2000x256_S256x1_S2000x1_1_0_0_1_n_n rfl rfl lhs_row lhs_contr rhs_contr rhs_col none x w p q

/-- The stored value at (p, q). -/
theorem stored_rc (x0 : Vec Ideal S2000x256 .f32) (x1 : Vec Ideal S2000x256 .f32) (x2 : Vec Ideal S256x1 .f32) (x3 : Vec Ideal S256x1 .f32) (x4 : Vec Ideal S1 .f32) (p : Fin 2000) (q : Fin 1) :
    k2_pay1 (F := Ideal) x0 x1 x2 x3 x4 (ix2 p q)
      = ∑ k : Fin 256, x0 (ix2 p k) * x2 (ix2 k q) + ∑ k : Fin 256, x1 (ix2 p k) * x3 (ix2 k q) + x4 (ix1 q) := by
  unfold k2_pay1
  refine (addf_apply _ _ (ix2 p q)).trans ?_
  refine congrArg₂ (· + ·) ?_ (Cert.LibDense.rowBroadcast_rc x4 _ _ p q)
  refine (addf_apply _ _ (ix2 p q)).trans ?_
  refine congrArg₂ (· + ·) ?_ ?_
  · refine (product_rc _ _ p q).trans (Finset.sum_congr rfl fun k _ => ?_)
    exact congrArg₂ (· * ·) (congrFun (shapeCast_self x0 _) (ix2 p k)) rfl
  · refine (product_rc _ _ p q).trans (Finset.sum_congr rfl fun k _ => ?_)
    exact congrArg₂ (· * ·) (congrFun (shapeCast_self x1 _) (ix2 p k)) rfl

end Cert.KernelIdeal.Layer2

end
-- ==== Proof.LayerArray2.lean ====
/-
  Layer 3's output array after its pallas_call, as ONE function of the arrays the call finds.

  The grid has 25 points; point t reads rows 2000·t … 2000·t + 1999 of the neighbourhood means and of the node
  features, the whole of both weight matrices and the whole bias, and writes rows 2000·t … 2000·t + 1999 of the
  output. The stored block at (p, q) is the layer's entry (Proof/LayerBody2.lean) of those rows, so what point t writes
  back is block t of the layer function of the whole arrays; the 25 blocks tile the 50000 rows (row i lies in block
  i / 2000), so the array ends as that function everywhere.
-/
import proofs.«123736_j2911987826952_1_alg».proof.Proof.GenP.KernelIdeal.Frame
import proofs.«123736_j2911987826952_1_alg».proof.Proof.LayerBody2
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The layer function of the arrays as the call finds them: neighbourhood means, node features, the two weight
    matrices, the bias. -/
def whole (c : Dev nD) : S50000x1.Idx → EReal :=
  Cert.Sage.lin (M := 50000) (K := 256) (N := 1) (V c main_v50) (V c main_v38) (V c main_arg8) (V c main_arg9) (V c main_arg10)

/-- Where each window's block sits at point t: the two row-blocked inputs move with the output, the weights and the
    bias stay at block 0, and the output's row block is the point's number. -/
theorem where_blocks : ∀ t : Fin cfg2.N,
      win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (1 : Fin 2) = 0 :=
  (by decide +kernel : ∀ t : Fin grid2.N, _)

/-- Every row block is some point's. -/
theorem block_onto : ∀ (b : Fin 25), ∃ t : Fin cfg2.N, win2_5.index t = ![b.val, 0] :=
  (by decide +kernel : ∀ (b : Fin 25), ∃ t : Fin grid2.N, win2_5.index t = ![b.val, 0])

/-- What point t writes back is block t of the layer function of the whole arrays. -/
theorem written_back (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero off2]
  simp only [View.ld_unit_zero (S := S2000x256) off2, View.ld_unit_zero (S := S256x1) off2, View.ld_unit_zero (S := S1) off1]
  obtain ⟨e00, e01, e10, e11, e20, e21, e30, e31, e40, e51⟩ := where_blocks t
  funext j
  obtain ⟨p, q, rfl⟩ : ∃ (p : Fin 2000) (q : Fin 1), j = ix2 p q := ⟨j 0, j 1, eq_ix2 j⟩
  show k2_pay1 (iblk2 V c 0 t) (iblk2 V c 1 t) (iblk2 V c 2 t) (iblk2 V c 3 t) (iblk2 V c 4 t) (ix2 p q)
      = whole V c (((cfg2.win 5).blk t).view.emb (ix2 p q))
  refine (stored_rc (iblk2 V c 0 t) (iblk2 V c 1 t) (iblk2 V c 2 t) (iblk2 V c 3 t) (iblk2 V c 4 t) p q).trans ?_
  unfold whole Cert.Sage.lin
  refine congrArg₂ (· + ·) (congrArg₂ (· + ·)
    (Finset.sum_congr rfl fun k _ => congrArg₂ (· * ·) ?_ ?_) (Finset.sum_congr rfl fun k _ => congrArg₂ (· * ·) ?_ ?_)) ?_
  · show V c main_v50 (((cfg2.win 0).blk t).view.emb (ix2 p k)) = V c main_v50 _
    refine congrArg (V c main_v50) (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 256 + 1 * k.val = k.val; omega
  · show V c main_arg8 (((cfg2.win 2).blk t).view.emb (ix2 k q)) = V c main_arg8 _
    refine congrArg (V c main_arg8) (funext fun a => Fin.ext ?_)
    match a with
    | ⟨0, _⟩ => show win2_2.index t (0 : Fin 2) * 256 + 1 * k.val = k.val; omega
    | ⟨1, _⟩ => show win2_2.index t (1 : Fin 2) * 1 + 1 * q.val = win2_5.index t (1 : Fin 2) * 1 + 1 * q.val; omega
  · show V c main_v38 (((cfg2.win 1).blk t).view.emb (ix2 p k)) = V c main_v38 _
    refine congrArg (V c main_v38) (funext fun a => Fin.ext ?_)
    match a with
    | ⟨0, _⟩ => show win2_1.index t (0 : Fin 2) * 2000 + 1 * p.val = win2_5.index t (0 : Fin 2) * 2000 + 1 * p.val; omega
    | ⟨1, _⟩ => show win2_1.index t (1 : Fin 2) * 256 + 1 * k.val = k.val; omega
  · show V c main_arg9 (((cfg2.win 3).blk t).view.emb (ix2 k q)) = V c main_arg9 _
    refine congrArg (V c main_arg9) (funext fun a => Fin.ext ?_)
    match a with
    | ⟨0, _⟩ => show win2_3.index t (0 : Fin 2) * 256 + 1 * k.val = k.val; omega
    | ⟨1, _⟩ => show win2_3.index t (1 : Fin 2) * 1 + 1 * q.val = win2_5.index t (1 : Fin 2) * 1 + 1 * q.val; omega
  · show V c main_arg10 (((cfg2.win 4).blk t).view.emb (ix1 q)) = V c main_arg10 _
    refine congrArg (V c main_arg10) (funext fun a => Fin.ext ?_)
    match a with
    | ⟨0, _⟩ => show win2_4.index t (0 : Fin 1) * 1 + 1 * q.val = win2_5.index t (1 : Fin 2) * 1 + 1 * q.val; omega

/-- An index of the output array is in point t's block iff each coordinate is in the block's range on its axis. -/
theorem in_block (t : Fin cfg2.N) (i : S50000x1.Idx) :
    i ∈ ((cfg2.win 5).blk t).view.set ↔ ∀ a : Fin 2, win2_5.index t a * S2000x1.size a ≤ (i a).val ∧ (i a).val < win2_5.index t a * S2000x1.size a + S2000x1.size a := by
  show i ∈ ((View.whole main_v51).slice (win2_5.rect t)).set ↔ _
  rw [View.set_slice_whole, Rect.mem_set_unit]
  exact Iff.rfl

/-- Every index of the output array is in the block of the point numbered by its row divided by 2000. -/
theorem covered (i : S50000x1.Idx) :
    ∃ t : Fin cfg2.N, (cfg2.win 5).flush t = true ∧ i ∈ ((cfg2.win 5).blk t).view.set := by
  have hi0 : (i 0).val < 50000 := (i 0).isLt
  have hi1 : (i 1).val < 1 := (i 1).isLt
  obtain ⟨t, ht⟩ := block_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [in_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 1 ≤ (i 1).val ∧ (i 1).val < win2_5.index t (1 : Fin 2) * 1 + 1; omega

/-- The output array after the call is the layer function of the arrays the call found. -/
theorem array_after (c : Dev nD) : (dat2 V c).arrAt 5 cfg2.N = whole V c :=
  (dat2 V c).arrAt_eq_of_cover 5 (whole V c) (fun t _ => written_back V c t) covered

end Cert.KernelIdeal.Layer2

end
-- ==== Proof.RefLayers.lean ====
/-
  The reference's three layers, each read index by index: a layer adds the neighbourhood means' product with `Wl`, then the
  bias broadcast down the rows, then the node features' product with `Wr` (and rectifies, in the first two layers). With
  each product as the sum over the contracted coordinate, the entry at (p, q) is

      (Σ_k A(p,k)·Wl(k,q) + b(q)) + Σ_k H(p,k)·Wr(k,q),

  which is the layer function's Σ_k A·Wl + Σ_k H·Wr + b by commutativity and associativity of the sum of extended reals.
-/
import proofs.«123736_j2911987826952_1_alg».proof.Proof.Gen.ReferenceIdeal.Read
import proofs.«123736_j2911987826952_1_alg».proof.Proof.LibSageLayer

noncomputable section

namespace Cert.ReferenceIdeal.Layers

open Idealize.ShloMosaic Idealize.ShloMosaic.ValueIdx Cert.ReferenceIdeal Cert.ReferenceIdeal.Read

variable (x0 : (⟨S50000x30, .f32⟩ : BufTy).Contents (Elt Ideal)) (x1 : (⟨S2x800000, .i32⟩ : BufTy).Contents (Elt Ideal))
  (x2 x3 : (⟨S30x128, .f32⟩ : BufTy).Contents (Elt Ideal)) (x4 : (⟨S128, .f32⟩ : BufTy).Contents (Elt Ideal)) (x5 x6 : (⟨S128x256, .f32⟩ : BufTy).Contents (Elt Ideal)) (x7 : (⟨S256, .f32⟩ : BufTy).Contents (Elt Ideal))
  (x8 x9 : (⟨S256x1, .f32⟩ : BufTy).Contents (Elt Ideal)) (x10 : (⟨S1, .f32⟩ : BufTy).Contents (Elt Ideal))

/-- Layer 1 of the reference: the rectified sum of the means' product with `Wl`, the bias, and the features' product
    with `Wr` is the layer function of the means and the features (the bias moved past the second product). -/
theorem layer1 :
    val_main_v29 (F := Ideal) x0 x1 x2 x3 x4
      = Cert.Sage.act (M := 50000) (K := 30) (N := 128) (val_main_v22 (F := Ideal) x0 x1) (x0) x2 x3 x4 := by
  funext i
  obtain ⟨p, q, rfl⟩ : ∃ (p : Fin 50000) (q : Fin 128), i = ix2 p q := ⟨i 0, i 1, eq_ix2 i⟩
  rw [Cert.Sage.act_apply]
  rw [val_main_v29_apply, val_main_v28_apply, val_main_v26_apply, val_main_v23_apply, val_main_v25_apply, val_main_v24_apply, val_main_v27_apply, val_main_call0_v0_apply, val_main_call0_cst_apply]
  have eLa : ∀ k : Fin 30, lidx_main_v23 (ix2 p q) k = ix2 p k := fun k => funext fun a => Fin.ext (by
    match a with | ⟨0, _⟩ => rfl | ⟨1, _⟩ => rfl)
  have eRa : ∀ k : Fin 30, ridx_main_v23 (ix2 p q) k = ix2 k q := fun k => funext fun a => Fin.ext (by
    match a with | ⟨0, _⟩ => rfl | ⟨1, _⟩ => rfl)
  have eLh : ∀ k : Fin 30, lidx_main_v27 (ix2 p q) k = ix2 p k := fun k => funext fun a => Fin.ext (by
    match a with | ⟨0, _⟩ => rfl | ⟨1, _⟩ => rfl)
  have eRh : ∀ k : Fin 30, ridx_main_v27 (ix2 p q) k = ix2 k q := fun k => funext fun a => Fin.ext (by
    match a with | ⟨0, _⟩ => rfl | ⟨1, _⟩ => rfl)
  have eB : idx_main_v24 (idx_main_v25 (ix2 p q)) = ix1 q := funext fun a => Fin.ext (by
    match a with | ⟨0, _⟩ => rfl)
  simp only [eLa, eRa, eLh, eRh, eB, Ideal.maximumf_def, Ideal.addf_def, Ideal.ofBits_def]
  rw [Cert.Sage.bias_between]

/-- Layer 2 of the reference: the rectified sum of the means' product with `Wl`, the bias, and the features' product
    with `Wr` is the layer function of the means and the features (the bias moved past the second product). -/
theorem layer2 :
    val_main_v55 (F := Ideal) x0 x1 x2 x3 x4 x5 x6 x7
      = Cert.Sage.act (M := 50000) (K := 128) (N := 256) (val_main_v48 (F := Ideal) x0 x1 x2 x3 x4) (val_main_v29 (F := Ideal) x0 x1 x2 x3 x4) x5 x6 x7 := by
  funext i
  obtain ⟨p, q, rfl⟩ : ∃ (p : Fin 50000) (q : Fin 256), i = ix2 p q := ⟨i 0, i 1, eq_ix2 i⟩
  rw [Cert.Sage.act_apply]
  rw [val_main_v55_apply, val_main_v54_apply, val_main_v52_apply, val_main_v49_apply, val_main_v51_apply, val_main_v50_apply, val_main_v53_apply, val_main_call1_v0_apply, val_main_call1_cst_apply]
  have eLa : ∀ k : Fin 128, lidx_main_v49 (ix2 p q) k = ix2 p k := fun k => funext fun a => Fin.ext (by
    match a with | ⟨0, _⟩ => rfl | ⟨1, _⟩ => rfl)
  have eRa : ∀ k : Fin 128, ridx_main_v49 (ix2 p q) k = ix2 k q := fun k => funext fun a => Fin.ext (by
    match a with | ⟨0, _⟩ => rfl | ⟨1, _⟩ => rfl)
  have eLh : ∀ k : Fin 128, lidx_main_v53 (ix2 p q) k = ix2 p k := fun k => funext fun a => Fin.ext (by
    match a with | ⟨0, _⟩ => rfl | ⟨1, _⟩ => rfl)
  have eRh : ∀ k : Fin 128, ridx_main_v53 (ix2 p q) k = ix2 k q := fun k => funext fun a => Fin.ext (by
    match a with | ⟨0, _⟩ => rfl | ⟨1, _⟩ => rfl)
  have eB : idx_main_v50 (idx_main_v51 (ix2 p q)) = ix1 q := funext fun a => Fin.ext (by
    match a with | ⟨0, _⟩ => rfl)
  simp only [eLa, eRa, eLh, eRh, eB, Ideal.maximumf_def, Ideal.addf_def, Ideal.ofBits_def]
  rw [Cert.Sage.bias_between]

/-- Layer 3 of the reference: sum of the means' product with `Wl`, the bias, and the features' product
    with `Wr` is the layer function of the means and the features (the bias moved past the second product). -/
theorem layer3 :
    val_main_v80 (F := Ideal) x0 x1 x2 x3 x4 x5 x6 x7 x8 x9 x10
      = Cert.Sage.lin (M := 50000) (K := 256) (N := 1) (val_main_v74 (F := Ideal) x0 x1 x2 x3 x4 x5 x6 x7) (val_main_v55 (F := Ideal) x0 x1 x2 x3 x4 x5 x6 x7) x8 x9 x10 := by
  funext i
  obtain ⟨p, q, rfl⟩ : ∃ (p : Fin 50000) (q : Fin 1), i = ix2 p q := ⟨i 0, i 1, eq_ix2 i⟩
  rw [Cert.Sage.lin_apply]
  rw [val_main_v80_apply, val_main_v78_apply, val_main_v75_apply, val_main_v77_apply, val_main_v76_apply, val_main_v79_apply]
  have eLa : ∀ k : Fin 256, lidx_main_v75 (ix2 p q) k = ix2 p k := fun k => funext fun a => Fin.ext (by
    match a with | ⟨0, _⟩ => rfl | ⟨1, _⟩ => rfl)
  have eRa : ∀ k : Fin 256, ridx_main_v75 (ix2 p q) k = ix2 k q := fun k => funext fun a => Fin.ext (by
    match a with | ⟨0, _⟩ => rfl | ⟨1, _⟩ => rfl)
  have eLh : ∀ k : Fin 256, lidx_main_v79 (ix2 p q) k = ix2 p k := fun k => funext fun a => Fin.ext (by
    match a with | ⟨0, _⟩ => rfl | ⟨1, _⟩ => rfl)
  have eRh : ∀ k : Fin 256, ridx_main_v79 (ix2 p q) k = ix2 k q := fun k => funext fun a => Fin.ext (by
    match a with | ⟨0, _⟩ => rfl | ⟨1, _⟩ => rfl)
  have eB : idx_main_v76 (idx_main_v77 (ix2 p q)) = ix1 q := funext fun a => Fin.ext (by
    match a with
    | ⟨0, _⟩ =>
      have hq : q.val = 0 := by omega
      show (0 : Nat) = q.val
      omega)
  simp only [eLa, eRa, eLh, eRh, eB, Ideal.maximumf_def, Ideal.addf_def, Ideal.ofBits_def]
  rw [Cert.Sage.bias_between]

end Cert.ReferenceIdeal.Layers

end
-- ==== Proof.KernelWalk.lean ====
/-
  The idealized kernel's three layer outputs are the reference's three layer stages.

  Walking @main from the launch memory: the first stretch of host operations computes the source and target index
  rows, the column of reciprocals 1 / max(in-degree, 1) and the first layer's neighbourhood means; each pallas_call
  leaves its output array at the layer function of the arrays it finds (Proof/LayerArray*.lean) and every other buffer
  as it was; each later stretch gathers the previous layer's output along the source indices, scatter-adds it at the
  target indices and multiplies by the column of reciprocals. The reference computes, per layer, the same gather and
  scatter-add of the same values, divided by max(in-degree, 1): equal by the mean law (Proof/LibSageLayer.lean), and its
  layer is the same layer function (Proof/RefLayers.lean). So, layer by layer, the kernel's arrays are the
  reference's stage functions of the argument arrays.
-/
import proofs.«123736_j2911987826952_1_alg».proof.Proof.GenP.KernelIdeal.Frame
import proofs.«123736_j2911987826952_1_alg».proof.Proof.LayerArray0
import proofs.«123736_j2911987826952_1_alg».proof.Proof.LayerArray1
import proofs.«123736_j2911987826952_1_alg».proof.Proof.LayerArray2
import proofs.«123736_j2911987826952_1_alg».proof.Proof.RefLayers
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.KernelIdeal.GenP
open Cert.ReferenceIdeal.Read (val_main_v1 val_main_v3 val_main_v19 val_main_v22 val_main_v29 val_main_v48 val_main_v55 val_main_v74 val_main_v80)

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-! ## The arguments, at each call's entry, are the launch memory's -/

theorem at1_arg0 : W1 m ρ c (Proc.devRef .tc main_arg0) = x0 := by
  show StableHlo.after hostOps0 (W0 m ρ c) (Proc.devRef .tc main_arg0) = _
  after_results <;> rfl
theorem at1_arg2 : W1 m ρ c (Proc.devRef .tc main_arg2) = x2 := by
  show StableHlo.after hostOps0 (W0 m ρ c) (Proc.devRef .tc main_arg2) = _
  after_results <;> rfl
theorem at1_arg3 : W1 m ρ c (Proc.devRef .tc main_arg3) = x3 := by
  show StableHlo.after hostOps0 (W0 m ρ c) (Proc.devRef .tc main_arg3) = _
  after_results <;> rfl
theorem at1_arg4 : W1 m ρ c (Proc.devRef .tc main_arg4) = x4 := by
  show StableHlo.after hostOps0 (W0 m ρ c) (Proc.devRef .tc main_arg4) = _
  after_results <;> rfl
theorem at1_arg5 : W1 m ρ c (Proc.devRef .tc main_arg5) = x5 := by
  show StableHlo.after hostOps0 (W0 m ρ c) (Proc.devRef .tc main_arg5) = _
  after_results <;> rfl
theorem at1_arg6 : W1 m ρ c (Proc.devRef .tc main_arg6) = x6 := by
  show StableHlo.after hostOps0 (W0 m ρ c) (Proc.devRef .tc main_arg6) = _
  after_results <;> rfl
theorem at1_arg7 : W1 m ρ c (Proc.devRef .tc main_arg7) = x7 := by
  show StableHlo.after hostOps0 (W0 m ρ c) (Proc.devRef .tc main_arg7) = _
  after_results <;> rfl
theorem at1_arg8 : W1 m ρ c (Proc.devRef .tc main_arg8) = x8 := by
  show StableHlo.after hostOps0 (W0 m ρ c) (Proc.devRef .tc main_arg8) = _
  after_results <;> rfl
theorem at1_arg9 : W1 m ρ c (Proc.devRef .tc main_arg9) = x9 := by
  show StableHlo.after hostOps0 (W0 m ρ c) (Proc.devRef .tc main_arg9) = _
  after_results <;> rfl
theorem at1_arg10 : W1 m ρ c (Proc.devRef .tc main_arg10) = x10 := by
  show StableHlo.after hostOps0 (W0 m ρ c) (Proc.devRef .tc main_arg10) = _
  after_results <;> rfl
theorem at3_arg5 : W3 m ρ c (Proc.devRef .tc main_arg5) = x5 :=
  (show StableHlo.after hostOps1 (W2 m ρ c) (Proc.devRef .tc main_arg5) = W2 m ρ c (Proc.devRef .tc main_arg5) by after_results <;> rfl).trans
    ((W2_of_ne m ρ c main_arg5 (by decide)).trans (at1_arg5 m ρ c))
theorem at3_arg6 : W3 m ρ c (Proc.devRef .tc main_arg6) = x6 :=
  (show StableHlo.after hostOps1 (W2 m ρ c) (Proc.devRef .tc main_arg6) = W2 m ρ c (Proc.devRef .tc main_arg6) by after_results <;> rfl).trans
    ((W2_of_ne m ρ c main_arg6 (by decide)).trans (at1_arg6 m ρ c))
theorem at3_arg7 : W3 m ρ c (Proc.devRef .tc main_arg7) = x7 :=
  (show StableHlo.after hostOps1 (W2 m ρ c) (Proc.devRef .tc main_arg7) = W2 m ρ c (Proc.devRef .tc main_arg7) by after_results <;> rfl).trans
    ((W2_of_ne m ρ c main_arg7 (by decide)).trans (at1_arg7 m ρ c))
theorem at3_arg8 : W3 m ρ c (Proc.devRef .tc main_arg8) = x8 :=
  (show StableHlo.after hostOps1 (W2 m ρ c) (Proc.devRef .tc main_arg8) = W2 m ρ c (Proc.devRef .tc main_arg8) by after_results <;> rfl).trans
    ((W2_of_ne m ρ c main_arg8 (by decide)).trans (at1_arg8 m ρ c))
theorem at3_arg9 : W3 m ρ c (Proc.devRef .tc main_arg9) = x9 :=
  (show StableHlo.after hostOps1 (W2 m ρ c) (Proc.devRef .tc main_arg9) = W2 m ρ c (Proc.devRef .tc main_arg9) by after_results <;> rfl).trans
    ((W2_of_ne m ρ c main_arg9 (by decide)).trans (at1_arg9 m ρ c))
theorem at3_arg10 : W3 m ρ c (Proc.devRef .tc main_arg10) = x10 :=
  (show StableHlo.after hostOps1 (W2 m ρ c) (Proc.devRef .tc main_arg10) = W2 m ρ c (Proc.devRef .tc main_arg10) by after_results <;> rfl).trans
    ((W2_of_ne m ρ c main_arg10 (by decide)).trans (at1_arg10 m ρ c))
theorem at5_arg8 : W5 m ρ c (Proc.devRef .tc main_arg8) = x8 :=
  (show StableHlo.after hostOps2 (W4 m ρ c) (Proc.devRef .tc main_arg8) = W4 m ρ c (Proc.devRef .tc main_arg8) by after_results <;> rfl).trans
    ((W4_of_ne m ρ c main_arg8 (by decide)).trans (at3_arg8 m ρ c))
theorem at5_arg9 : W5 m ρ c (Proc.devRef .tc main_arg9) = x9 :=
  (show StableHlo.after hostOps2 (W4 m ρ c) (Proc.devRef .tc main_arg9) = W4 m ρ c (Proc.devRef .tc main_arg9) by after_results <;> rfl).trans
    ((W4_of_ne m ρ c main_arg9 (by decide)).trans (at3_arg9 m ρ c))
theorem at5_arg10 : W5 m ρ c (Proc.devRef .tc main_arg10) = x10 :=
  (show StableHlo.after hostOps2 (W4 m ρ c) (Proc.devRef .tc main_arg10) = W4 m ρ c (Proc.devRef .tc main_arg10) by after_results <;> rfl).trans
    ((W4_of_ne m ρ c main_arg10 (by decide)).trans (at3_arg10 m ρ c))

/-! ## The index rows and the column of reciprocals, computed once and carried to every later boundary -/

/-- The column of reciprocals 1 / max(in-degree, 1), in the reference's words for the in-degree. -/
def recipCol (e : (⟨S2x800000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant (F := Ideal) S_ .f32 0x3F800000#32))
      (val_main_v19 (F := Ideal) e))

theorem at1_src : W1 m ρ c (Proc.devRef .tc main_v1) = val_main_v1 (F := Ideal) x1 := by
  show StableHlo.after hostOps0 (W0 m ρ c) (Proc.devRef .tc main_v1) = _
  after_results <;> rfl
theorem at1_dst : W1 m ρ c (Proc.devRef .tc main_v3) = val_main_v3 (F := Ideal) x1 := by
  show StableHlo.after hostOps0 (W0 m ρ c) (Proc.devRef .tc main_v3) = _
  after_results <;> rfl
theorem at1_recip : W1 m ρ c (Proc.devRef .tc main_v12) = recipCol x1 := by
  show StableHlo.after hostOps0 (W0 m ρ c) (Proc.devRef .tc main_v12) = _
  after_results <;> rfl

theorem at2_src : W2 m ρ c (Proc.devRef .tc main_v1) = val_main_v1 (F := Ideal) x1 :=
  (W2_of_ne m ρ c main_v1 (by decide)).trans (at1_src m ρ c)
theorem at2_dst : W2 m ρ c (Proc.devRef .tc main_v3) = val_main_v3 (F := Ideal) x1 :=
  (W2_of_ne m ρ c main_v3 (by decide)).trans (at1_dst m ρ c)
theorem at2_recip : W2 m ρ c (Proc.devRef .tc main_v12) = recipCol x1 :=
  (W2_of_ne m ρ c main_v12 (by decide)).trans (at1_recip m ρ c)

theorem at4_src : W4 m ρ c (Proc.devRef .tc main_v1) = val_main_v1 (F := Ideal) x1 :=
  (W4_of_ne m ρ c main_v1 (by decide)).trans ((show StableHlo.after hostOps1 (W2 m ρ c) (Proc.devRef .tc main_v1) = W2 m ρ c (Proc.devRef .tc main_v1) by after_results <;> rfl).trans (at2_src m ρ c))
theorem at4_dst : W4 m ρ c (Proc.devRef .tc main_v3) = val_main_v3 (F := Ideal) x1 :=
  (W4_of_ne m ρ c main_v3 (by decide)).trans ((show StableHlo.after hostOps1 (W2 m ρ c) (Proc.devRef .tc main_v3) = W2 m ρ c (Proc.devRef .tc main_v3) by after_results <;> rfl).trans (at2_dst m ρ c))
theorem at4_recip : W4 m ρ c (Proc.devRef .tc main_v12) = recipCol x1 :=
  (W4_of_ne m ρ c main_v12 (by decide)).trans ((show StableHlo.after hostOps1 (W2 m ρ c) (Proc.devRef .tc main_v12) = W2 m ρ c (Proc.devRef .tc main_v12) by after_results <;> rfl).trans (at2_recip m ρ c))

/-! ## Layer 1 -/

set_option maxHeartbeats 8000000 in
/-- The first stretch of host operations leaves the first layer's neighbourhood means, from any contents of the
    arguments' buffers. -/
theorem stretch0 (Wv : Valuation τ sig (Elt Ideal)) :
    StableHlo.after hostOps0 Wv (Proc.devRef .tc main_v24)
      = val_main_v22 (F := Ideal) (Wv (Proc.devRef .tc main_arg0)) (Wv (Proc.devRef .tc main_arg1)) := by
  after_results_simp
  refine (Cert.Sage.mean_array _ _ _ _ _).trans ?_
  rfl

/-- The first layer's neighbourhood means, as the first call finds them. -/
theorem means1 : W1 m ρ c (Proc.devRef .tc main_v24) = val_main_v22 (F := Ideal) x0 x1 :=
  stretch0 (W0 m ρ c)

/-- The first call's output is the reference's first layer. -/
theorem out1 : W2 m ρ c (Proc.devRef .tc main_v25) = val_main_v29 (F := Ideal) x0 x1 x2 x3 x4 :=
  ((W2_arr m ρ c 5).trans (Cert.KernelIdeal.Layer0.array_after (V1 m ρ) c)).trans
    ((Cert.Sage.act_congr (means1 m ρ c) (at1_arg0 m ρ c) (at1_arg2 m ρ c) (at1_arg3 m ρ c) (at1_arg4 m ρ c)).trans
      (Cert.ReferenceIdeal.Layers.layer1 x0 x1 x2 x3 x4).symm)

/-! ## Layer 2 -/

theorem feat2 : W3 m ρ c (Proc.devRef .tc main_v25) = val_main_v29 (F := Ideal) x0 x1 x2 x3 x4 :=
  (show StableHlo.after hostOps1 (W2 m ρ c) (Proc.devRef .tc main_v25) = W2 m ρ c (Proc.devRef .tc main_v25) by after_results <;> rfl).trans (out1 m ρ c)

/-- A later layer's neighbourhood means as the host operations compute them, from the previous layer's output `h`, the
    source and target index rows and the column of reciprocals: the rows of `h` gathered along the sources (a negative
    source counted from the end), scatter-added at the targets, times the column broadcast along the rows. -/
def meansOf128 (h : (⟨S50000x128, .f32⟩ : BufTy).Contents (Elt Ideal)) (src dst : (⟨S800000, .i32⟩ : BufTy).Contents (Elt Ideal))
    (rc : (⟨S50000x1, .f32⟩ : BufTy).Contents (Elt Ideal)) : (⟨S50000x128, .f32⟩ : BufTy).Contents (Elt Ideal) :=
  mulf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 rc)

set_option maxHeartbeats 8000000 in
/-- The stretch of host operations before the second call leaves that layer's neighbourhood means, from any contents. -/
theorem stretch1 (Wv : Valuation τ sig (Elt Ideal)) :
    StableHlo.after hostOps1 Wv (Proc.devRef .tc main_v37)
      = meansOf128 (Wv (Proc.devRef .tc main_v25)) (Wv (Proc.devRef .tc main_v1)) (Wv (Proc.devRef .tc main_v3))
          (Wv (Proc.devRef .tc main_v12)) := by
  after_results_simp
  rfl

/-- Of the reference's previous layer, the reference's index rows and the column of reciprocals, those means are the
    reference's: the same gather and scatter-add, and the mean law. -/
theorem meansOf128_ref (a : (⟨S50000x30, .f32⟩ : BufTy).Contents (Elt Ideal)) (e : (⟨S2x800000, .i32⟩ : BufTy).Contents (Elt Ideal)) (w1 w2 : (⟨S30x128, .f32⟩ : BufTy).Contents (Elt Ideal)) (b1 : (⟨S128, .f32⟩ : BufTy).Contents (Elt Ideal)) :
    meansOf128 (val_main_v29 (F := Ideal) a e w1 w2 b1) (val_main_v1 (F := Ideal) e) (val_main_v3 (F := Ideal) e) (recipCol e)
      = val_main_v48 (F := Ideal) a e w1 w2 b1 := by
  unfold meansOf128 recipCol
  refine (Cert.Sage.mean_array _ _ _ _ _).trans ?_
  rfl

/-- The second layer's neighbourhood means, as the second call finds them. -/
theorem means2 : W3 m ρ c (Proc.devRef .tc main_v37) = val_main_v48 (F := Ideal) x0 x1 x2 x3 x4 := by
  refine (stretch1 (W2 m ρ c)).trans ?_
  rw [at2_src m ρ c, at2_dst m ρ c, at2_recip m ρ c, out1 m ρ c]
  exact meansOf128_ref _ _ _ _ _

/-- The second call's output is the reference's second layer. -/
theorem out2 : W4 m ρ c (Proc.devRef .tc main_v38) = val_main_v55 (F := Ideal) x0 x1 x2 x3 x4 x5 x6 x7 :=
  ((W4_arr m ρ c 5).trans (Cert.KernelIdeal.Layer1.array_after (V3 m ρ) c)).trans
    ((Cert.Sage.act_congr (means2 m ρ c) (feat2 m ρ c) (at3_arg5 m ρ c) (at3_arg6 m ρ c) (at3_arg7 m ρ c)).trans
      (Cert.ReferenceIdeal.Layers.layer2 x0 x1 x2 x3 x4 x5 x6 x7).symm)

/-! ## Layer 3 -/

theorem feat3 : W5 m ρ c (Proc.devRef .tc main_v38) = val_main_v55 (F := Ideal) x0 x1 x2 x3 x4 x5 x6 x7 :=
  (show StableHlo.after hostOps2 (W4 m ρ c) (Proc.devRef .tc main_v38) = W4 m ρ c (Proc.devRef .tc main_v38) by after_results <;> rfl).trans (out2 m ρ c)

/-- A later layer's neighbourhood means as the host operations compute them, from the previous layer's output `h`, the
    source and target index rows and the column of reciprocals: the rows of `h` gathered along the sources (a negative
    source counted from the end), scatter-added at the targets, times the column broadcast along the rows. -/
def meansOf256 (h : (⟨S50000x256, .f32⟩ : BufTy).Contents (Elt Ideal)) (src dst : (⟨S800000, .i32⟩ : BufTy).Contents (Elt Ideal))
    (rc : (⟨S50000x1, .f32⟩ : BufTy).Contents (Elt Ideal)) : (⟨S50000x256, .f32⟩ : BufTy).Contents (Elt Ideal) :=
  mulf (F := Ideal)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 dst)
      (Host.gather gather_S50000x256_S800000x1_S800000x256_1_0_n_n_0_1_1256 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x256 ![0, 1] bcast_S50000x1_S50000x256_0_1 rc)

set_option maxHeartbeats 8000000 in
/-- The stretch of host operations before the third call leaves that layer's neighbourhood means, from any contents. -/
theorem stretch2 (Wv : Valuation τ sig (Elt Ideal)) :
    StableHlo.after hostOps2 Wv (Proc.devRef .tc main_v50)
      = meansOf256 (Wv (Proc.devRef .tc main_v38)) (Wv (Proc.devRef .tc main_v1)) (Wv (Proc.devRef .tc main_v3))
          (Wv (Proc.devRef .tc main_v12)) := by
  after_results_simp
  rfl

/-- Of the reference's previous layer, the reference's index rows and the column of reciprocals, those means are the
    reference's: the same gather and scatter-add, and the mean law. -/
theorem meansOf256_ref (a : (⟨S50000x30, .f32⟩ : BufTy).Contents (Elt Ideal)) (e : (⟨S2x800000, .i32⟩ : BufTy).Contents (Elt Ideal)) (w1 w2 : (⟨S30x128, .f32⟩ : BufTy).Contents (Elt Ideal)) (b1 : (⟨S128, .f32⟩ : BufTy).Contents (Elt Ideal)) (w3 w4 : (⟨S128x256, .f32⟩ : BufTy).Contents (Elt Ideal)) (b2 : (⟨S256, .f32⟩ : BufTy).Contents (Elt Ideal)) :
    meansOf256 (val_main_v55 (F := Ideal) a e w1 w2 b1 w3 w4 b2) (val_main_v1 (F := Ideal) e) (val_main_v3 (F := Ideal) e) (recipCol e)
      = val_main_v74 (F := Ideal) a e w1 w2 b1 w3 w4 b2 := by
  unfold meansOf256 recipCol
  refine (Cert.Sage.mean_array _ _ _ _ _).trans ?_
  rfl

/-- The third layer's neighbourhood means, as the third call finds them. -/
theorem means3 : W5 m ρ c (Proc.devRef .tc main_v50) = val_main_v74 (F := Ideal) x0 x1 x2 x3 x4 x5 x6 x7 := by
  refine (stretch2 (W4 m ρ c)).trans ?_
  rw [at4_src m ρ c, at4_dst m ρ c, at4_recip m ρ c, out2 m ρ c]
  exact meansOf256_ref _ _ _ _ _ _ _ _

/-- The third call's output — @main's result — is the reference's result. -/
theorem out3 : W6 m ρ c (Proc.devRef .tc main_v51) = val_main_v80 (F := Ideal) x0 x1 x2 x3 x4 x5 x6 x7 x8 x9 x10 :=
  ((W6_arr m ρ c 5).trans (Cert.KernelIdeal.Layer2.array_after (V5 m ρ) c)).trans
    ((Cert.Sage.lin_congr (means3 m ρ c) (feat3 m ρ c) (at5_arg8 m ρ c) (at5_arg9 m ρ c) (at5_arg10 m ρ c)).trans
      (Cert.ReferenceIdeal.Layers.layer3 x0 x1 x2 x3 x4 x5 x6 x7 x8 x9 x10).symm)

end Cert.KernelIdeal.Walk

end
-- ==== Proof.lean ====
/-
  A three-layer mean-aggregating graph convolution (50000 nodes, 800000 edges, feature widths 30 → 128 → 256 → 1): the
  kernel program against its plain reference, at exact arithmetic.

  Both programs compute, per layer, from the node features `H`: the rows of `H` gathered along the edges' sources and
  scatter-added at the edges' targets (the neighbourhood sums), turned into means with the in-degree clipped below at 1,
  then  means · Wl + bias + H · Wr, rectified in the first two layers. They differ in three places, none of which is a
  difference on the extended reals:
  * the kernel multiplies the sums by the reciprocal 1 / max(in-degree, 1), computed once, where the reference divides
    by max(in-degree, 1) in every layer — the divisor is at least 1, so off zero, and there x / y is x · y⁻¹ for every
    extended real, infinite ones included (Proof/LibSageLayer.lean `mean_scalar`);
  * the kernel adds the bias after both products, the reference between them — commutativity and associativity of the
    sum (`bias_between`);
  * the kernel computes the dense part 2000 rows at a time, with its operands rounded to bf16 (the identity here) — a
    row of a product depends only on that row of the left factor, and the 25 row blocks tile the 50000 rows
    (Proof/LayerBody*.lean, Proof/LayerArray*.lean).
  No step needs the inputs finite, so the precondition is never opened.

  The kernel program's run names each boundary's buffer contents (Proof/KernelRun.lean over the frame's fold), and
  walking the fold identifies the three calls' outputs with the reference's three layer stages (Proof/KernelWalk.lean,
  Proof/RefLayers.lean); the reference's run is its operations' composed term. The ideal pass rewrote nothing, so the
  kernel's idealization is its own text read at exact arithmetic.
-/
import proofs.«123736_j2911987826952_1_alg».proof.Defs
import proofs.«123736_j2911987826952_1_alg».proof.Proof.Gen.Kernel
import proofs.«123736_j2911987826952_1_alg».proof.Proof.Gen.KernelIdeal
import proofs.«123736_j2911987826952_1_alg».proof.Proof.Gen.ReferenceIdeal
import proofs.«123736_j2911987826952_1_alg».proof.Proof.Gen.Pre_finite_inputs
import proofs.«123736_j2911987826952_1_alg».proof.Proof.GenP.Kernel.Frame
import proofs.«123736_j2911987826952_1_alg».proof.Proof.GenP.KernelIdeal.Frame
import proofs.«123736_j2911987826952_1_alg».proof.Proof.Gen.ReferenceIdeal.Run
import proofs.«123736_j2911987826952_1_alg».proof.Proof.Gen.ReferenceIdeal.Read
import proofs.«123736_j2911987826952_1_alg».proof.Proof.KernelRun
import proofs.«123736_j2911987826952_1_alg».proof.Proof.KernelWalk
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference has no pallas_call: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the reference's third layer stage of the argument arrays in their result buffers. -/
theorem algebraic : Cert.algebraic_KernelIdeal_ReferenceIdeal := by
  intro m ρ m' ρ' _ hagree
  refine ⟨fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Walk.out3 m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v80_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
